-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S32x256 : Shape := ⟨2, ![32, 256]⟩
abbrev S32 : Shape := ⟨1, ![32]⟩
abbrev S32x32 : Shape := ⟨2, ![32, 32]⟩
abbrev S16x32 : Shape := ⟨2, ![16, 32]⟩
abbrev S16 : Shape := ⟨1, ![16]⟩
abbrev S16x16 : Shape := ⟨2, ![16, 16]⟩
abbrev S2x1600000 : Shape := ⟨2, ![2, 1600000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S32x256 : S_.BroadcastsInDim S32x256 (![] : Fin 0 → Fin S32x256.rank)
  reducesTo_S32x256_S_d0_1 : S32x256.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S16x32 : S_.BroadcastsInDim S16x32 (![] : Fin 0 → Fin S16x32.rank)
  reducesTo_S16x32_S_d0_1 : S16x32.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_

variable [Facts]

def fn_part2 {F : FTy → Type} [FloatOps F] (main_arg7 : FVec F S16x16 .f32) (main_arg8 : FVec F S16 .f32) (main_v33 : IVec S_ 1) : IVec S_ 1 :=
  let main_v34 : FVec F S16x16 .f32 := Host.absf main_arg7
  let main_cst_12 : FVec F S_ .f32 := constant S_ .f32 0x7F800000#32
  let main_v35 : FVec F S16x16 .f32 := broadcastInDim S16x16 ![] bcast_S_S16x16 main_cst_12
  let main_v36 : IVec S16x16 1 := cmpf .olt main_v34 main_v35
  let main_c_13 : IVec S_ 1 := constantI S_ 1 1#1
  let main_v37 : IVec S_ 1 := (fun x v => Host.reduce IntOp.andi x v reducesTo_S16x16_S_d0_1 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg4 : FVec F S32 .f32) (main_arg5 : FVec F S16x32 .f32) (main_arg6 : FVec F S16 .f32) (main_arg7 : FVec F S16x16 .f32) (main_arg8 : FVec F S16 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S16x32 .f32 := Host.absf main_arg5
  let main_cst_8 : FVec F S_ .f32 := constant S_ .f32 0x7F800000#32
  let main_v25 : FVec F S16x32 .f32 := broadcastInDim S16x32 ![] bcast_S_S16x32 main_cst_8
  let main_v26 : IVec S16x32 1 := cmpf .olt main_v24 main_v25
  let main_c_9 : IVec S_ 1 := constantI S_ 1 1#1
  let main_v27 : IVec S_ 1 := (fun x v => Host.reduce IntOp.andi x v reducesTo_S16x32_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_v33

def fn {F : FTy → Type} [FloatOps F] (main_arg0 : FVec F S100000x256 .f32) (main_arg1 : FVec F S32x256 .f32) (main_arg2 : FVec F S32 .f32) (main_arg3 : FVec F S32x32 .f32) (main_arg4 : FVec F S32 .f32) (main_arg5 : FVec F S16x32 .f32) (main_arg6 : FVec F S16 .f32) (main_arg7 : FVec F S16x16 .f32) (main_arg8 : FVec F S16 .f32) (main_arg9 : IVec S2x1600000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S32x256 .f32 := Host.absf main_arg1
  let main_cst_0 : FVec F S_ .f32 := constant S_ .f32 0x7F800000#32
  let main_v5 : FVec F S32x256 .f32 := broadcastInDim S32x256 ![] bcast_S_S32x256 main_cst_0
  let main_v6 : IVec S32x256 1 := cmpf .olt main_v4 main_v5
  let main_c_1 : IVec S_ 1 := constantI S_ 1 1#1
  let main_v7 : IVec S_ 1 := (fun x v => Host.reduce IntOp.andi x v reducesTo_S32x256_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg3
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg4 main_arg5 main_arg6 main_arg7 main_arg8 main_v13 main_v16
-- ==== Kernel.lean ====
abbrev S100000x256 : Shape := ⟨2, ![100000, 256]⟩
abbrev S32x256 : Shape := ⟨2, ![32, 256]⟩
abbrev S32 : Shape := ⟨1, ![32]⟩
abbrev S32x32 : Shape := ⟨2, ![32, 32]⟩
abbrev S16x32 : Shape := ⟨2, ![16, 32]⟩
abbrev S16 : Shape := ⟨1, ![16]⟩
abbrev S16x16 : Shape := ⟨2, ![16, 16]⟩
abbrev S2x1600000 : Shape := ⟨2, ![2, 1600000]⟩
abbrev S1x1600000 : Shape := ⟨2, ![1, 1600000]⟩
abbrev S1600000 : Shape := ⟨1, ![1600000]⟩
abbrev S1x32 : Shape := ⟨2, ![1, 32]⟩
abbrev S100000x32 : Shape := ⟨2, ![100000, 32]⟩
abbrev S4000x256 : Shape := ⟨2, ![4000, 256]⟩
abbrev S4000x32 : Shape := ⟨2, ![4000, 32]⟩
abbrev S256x32 : Shape := ⟨2, ![256, 32]⟩
abbrev S_ : Shape := ⟨0, ![]⟩
abbrev S1600000x1 : Shape := ⟨2, ![1600000, 1]⟩
abbrev S1600000x32 : Shape := ⟨2, ![1600000, 32]⟩
abbrev S1x16 : Shape := ⟨2, ![1, 16]⟩
abbrev S100000x16 : Shape := ⟨2, ![100000, 16]⟩
abbrev S4000x16 : Shape := ⟨2, ![4000, 16]⟩
abbrev S32x16 : Shape := ⟨2, ![32, 16]⟩
abbrev S1600000x16 : Shape := ⟨2, ![1600000, 16]⟩
abbrev S4000 : Shape := ⟨1, ![4000]⟩
abbrev S4000x1 : Shape := ⟨2, ![4000, 1]⟩

abbrev nBuf : Space → Nat
  | .hbm => 50
  | .vmem => 32
  | .smem => 0
  | _ => 0

abbrev bufTy : (tb : Table) → Fin (tcTables nBuf tb) → BufTy
  | .hbm, ⟨0, _⟩ => ⟨S100000x256, .f32⟩
  | .hbm, ⟨1, _⟩ => ⟨S32x256, .f32⟩
  | .hbm, ⟨2, _⟩ => ⟨S32, .f32⟩
  | .hbm, ⟨3, _⟩ => ⟨S32x32, .f32⟩
  | .hbm, ⟨4, _⟩ => ⟨S32, .f32⟩
  | .hbm, ⟨5, _⟩ => ⟨S16x32, .f32⟩
  | .hbm, ⟨6, _⟩ => ⟨S16, .f32⟩
  | .hbm, ⟨7, _⟩ => ⟨S16x16, .f32⟩
  | .hbm, ⟨8, _⟩ => ⟨S16, .f32⟩
  | .hbm, ⟨9, _⟩ => ⟨S2x1600000, .i32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S1x32, .f32⟩
  | .hbm, ⟨15, _⟩ => ⟨S1x32, .f32⟩
  | .hbm, ⟨16, _⟩ => ⟨S100000x32, .f32⟩
  | .hbm, ⟨17, _⟩ => ⟨S100000x32, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x32, .f32⟩
  | .hbm, ⟨27, _⟩ => ⟨S_, .f32⟩
  | .hbm, ⟨28, _⟩ => ⟨S100000x32, .f32⟩
  | .hbm, ⟨29, _⟩ => ⟨S1600000x1, .i32⟩
  | .hbm, ⟨30, _⟩ => ⟨S100000x32, .f32⟩
  | .hbm, ⟨31, _⟩ => ⟨S100000x32, .f32⟩
  | .hbm, ⟨32, _⟩ => ⟨S1x16, .f32⟩
  | .hbm, ⟨33, _⟩ => ⟨S1x16, .f32⟩
  | .hbm, ⟨34, _⟩ => ⟨S100000x16, .f32⟩
  | .hbm, ⟨35, _⟩ => ⟨S100000x16, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x16, .f32⟩
  | .hbm, ⟨45, _⟩ => ⟨S_, .f32⟩
  | .hbm, ⟨46, _⟩ => ⟨S100000x16, .f32⟩
  | .hbm, ⟨47, _⟩ => ⟨S1600000x1, .i32⟩
  | .hbm, ⟨48, _⟩ => ⟨S100000x16, .f32⟩
  | .hbm, ⟨49, _⟩ => ⟨S100000x16, .f32⟩
  | .local _ .vmem, ⟨0, _⟩ => ⟨S4000x256, .f32⟩
  | .local _ .vmem, ⟨1, _⟩ => ⟨S4000x256, .f32⟩
  | .local _ .vmem, ⟨2, _⟩ => ⟨S32x256, .f32⟩
  | .local _ .vmem, ⟨3, _⟩ => ⟨S1x32, .f32⟩
  | .local _ .vmem, ⟨4, _⟩ => ⟨S32x32, .f32⟩
  | .local _ .vmem, ⟨5, _⟩ => ⟨S1x32, .f32⟩
  | .local _ .vmem, ⟨6, _⟩ => ⟨S4000x32, .f32⟩
  | .local _ .vmem, ⟨7, _⟩ => ⟨S4000x32, .f32⟩
  | .local _ .vmem, ⟨8, _⟩ => ⟨S4000x32, .f32⟩
  | .local _ .vmem, ⟨9, _⟩ => ⟨S4000x32, .f32⟩
  | .local _ .vmem, ⟨10, _⟩ => ⟨S4000x32, .f32⟩
  | .local _ .vmem, ⟨11, _⟩ => ⟨S4000x32, .f32⟩
  | .local _ .vmem, ⟨12, _⟩ => ⟨S4000x32, .f32⟩
  | .local _ .vmem, ⟨13, _⟩ => ⟨S4000x32, .f32⟩
  | .local _ .vmem, ⟨14, _⟩ => ⟨S4000x32, .f32⟩
  | .local _ .vmem, ⟨15, _⟩ => ⟨S4000x32, .f32⟩
  | .local _ .vmem, ⟨16, _⟩ => ⟨S4000x32, .f32⟩
  | .local _ .vmem, ⟨17, _⟩ => ⟨S4000x32, .f32⟩
  | .local _ .vmem, ⟨18, _⟩ => ⟨S16x32, .f32⟩
  | .local _ .vmem, ⟨19, _⟩ => ⟨S1x16, .f32⟩
  | .local _ .vmem, ⟨20, _⟩ => ⟨S16x16, .f32⟩
  | .local _ .vmem, ⟨21, _⟩ => ⟨S1x16, .f32⟩
  | .local _ .vmem, ⟨22, _⟩ => ⟨S4000x16, .f32⟩
  | .local _ .vmem, ⟨23, _⟩ => ⟨S4000x16, .f32⟩
  | .local _ .vmem, ⟨24, _⟩ => ⟨S4000x16, .f32⟩
  | .local _ .vmem, ⟨25, _⟩ => ⟨S4000x16, .f32⟩
  | .local _ .vmem, ⟨26, _⟩ => ⟨S4000x16, .f32⟩
  | .local _ .vmem, ⟨27, _⟩ => ⟨S4000x16, .f32⟩
  | .local _ .vmem, ⟨28, _⟩ => ⟨S4000x16, .f32⟩
  | .local _ .vmem, ⟨29, _⟩ => ⟨S4000x16, .f32⟩
  | .local _ .vmem, ⟨30, _⟩ => ⟨S4000x16, .f32⟩
  | .local _ .vmem, ⟨31, _⟩ => ⟨S4000x16, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20_0 : Ref sig .tc := ⟨.hbm, 34, rfl⟩
abbrev main_v20_1 : Ref sig .tc := ⟨.hbm, 35, rfl⟩
abbrev main_c_1 : Ref sig .tc := ⟨.hbm, 36, rfl⟩
abbrev main_v21 : Ref sig .tc := ⟨.hbm, 37, rfl⟩
abbrev main_v22 : Ref sig .tc := ⟨.hbm, 38, rfl⟩
abbrev main_c_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc2_stg6_0 : Ref sig .tc := ⟨.vmem, 24, rfl⟩
abbrev cc2_stg6_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc2_sem6_0 : DmaSem sig := 24
abbrev cc2_sem6_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4000x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S16x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S4000x16 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S32_S1x32 : S32.ShapeCasts S1x32
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S32x256_S32x256_0_0 : ∀ a, (![0, 0] : Fin 2 → Nat) a + S32x256.size a ≤ S32x256.size a
  h_S32x256 : 0 < S32x256.numel
  transposes_S32x256_p1_0_S256x32 : S32x256.Transposes [1, 0] S256x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  inb_S32x32_S32x32_0_0 : ∀ a, (![0, 0] : Fin 2 → Nat) a + S32x32.size a ≤ S32x32.size a
  h_S32x32 : 0 < S32x32.numel
  transposes_S32x32_p1_0_S32x32 : S32x32.Transposes [1, 0] S32x32
  inb_S4000x32_S4000x32_0_0 : ∀ a, (![0, 0] : Fin 2 → Nat) a + S4000x32.size a ≤ S4000x32.size a
  h_S4000x32 : 0 < S4000x32.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  shapeCasts_S4000x32_S4000x32 : S4000x32.ShapeCasts S4000x32
  shapeCasts_S16_S1x16 : S16.ShapeCasts S1x16
  inb_S16x32_S16x32_0_0 : ∀ a, (![0, 0] : Fin 2 → Nat) a + S16x32.size a ≤ S16x32.size a
  h_S16x32 : 0 < S16x32.numel
  transposes_S16x32_p1_0_S32x16 : S16x32.Transposes [1, 0] S32x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4000x16 : S1x16.Broadcasts S4000x16
  inb_S16x16_S16x16_0_0 : ∀ a, (![0, 0] : Fin 2 → Nat) a + S16x16.size a ≤ S16x16.size a
  h_S16x16 : 0 < S16x16.numel
  transposes_S16x16_p1_0_S16x16 : S16x16.Transposes [1, 0] S16x16
  inb_S4000x16_S4000x16_0_0 : ∀ a, (![0, 0] : Fin 2 → Nat) a + S4000x16.size a ≤ S4000x16.size a
  h_S4000x16 : 0 < S4000x16.numel
  bcast_S_S100000x16 : S_.BroadcastsInDim S100000x16 (![] : Fin 0 → Fin S100000x16.rank)
  shapeCasts_S4000x16_S4000x16 : S4000x16.ShapeCasts S4000x16
  reduces_S4000x16_S4000 : S4000x16.Reduces [1] S4000
  shapeCasts_S4000_S4000x1 : S4000.ShapeCasts S4000x1
  broadcasts_S4000x1_S4000x16 : S4000x1.Broadcasts S4000x16
  dot_S4000x256_S256x32_S4000x32_1_0_0_1_n_n_wf : DotDims.WF S4000x256 S256x32 S4000x32 [1] [0] [0] [1] [] []
  dot_S4000x32_S32x32_S4000x32_1_0_0_1_n_n_wf : DotDims.WF S4000x32 S32x32 S4000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S4000x32_S32x16_S4000x16_1_0_0_1_n_n_wf : DotDims.WF S4000x32 S32x16 S4000x16 [1] [0] [0] [1] [] []
  dot_S4000x16_S16x16_S4000x16_1_0_0_1_n_n_wf : DotDims.WF S4000x16 S16x16 S4000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S32x256.size a
  hwx0_1 : ∀ i : grid0.Coords, EltTy.bits .f32 = 32 ∨ (Rect.block (s := S32x256) S32x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x32.size a ≤ S100000x32.size a
  hwx0_5 : ∀ i : grid0.Coords, EltTy.bits .f32 = 32 ∨ (Rect.block (s := S100000x32) S4000x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x32.size a ≤ S100000x32.size a
  hwx0_6 : ∀ i : grid0.Coords, EltTy.bits .f32 = 32 ∨ (Rect.block (s := S100000x32) S4000x32.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x32.size a ≤ S100000x32.size a
  hwx1_0 : ∀ i : grid1.Coords, EltTy.bits .f32 = 32 ∨ (Rect.block (s := S100000x32) S4000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x32.size a ≤ S100000x32.size a
  hwx1_1 : ∀ i : grid1.Coords, EltTy.bits .f32 = 32 ∨ (Rect.block (s := S100000x32) S4000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x32.size a ≤ S100000x32.size a
  hwx1_2 : ∀ i : grid1.Coords, EltTy.bits .f32 = 32 ∨ (Rect.block (s := S100000x32) S4000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x32.size a ≤ S100000x32.size a
  hwx2_0 : ∀ i : grid2.Coords, EltTy.bits .f32 = 32 ∨ (Rect.block (s := S100000x32) S4000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x32.size a ≤ S16x32.size a
  hwx2_1 : ∀ i : grid2.Coords, EltTy.bits .f32 = 32 ∨ (Rect.block (s := S16x32) S16x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16x16.size a ≤ S16x16.size a
  hwx2_3 : ∀ i : grid2.Coords, EltTy.bits .f32 = 32 ∨ (Rect.block (s := S16x16) S16x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x16.size a ≤ S1x16.size a
  hwx2_4 : ∀ i : grid2.Coords, EltTy.bits .f32 = 32 ∨ (Rect.block (s := S1x16) S1x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x16.size a ≤ S100000x16.size a
  hwx2_5 : ∀ i : grid2.Coords, EltTy.bits .f32 = 32 ∨ (Rect.block (s := S100000x16) S4000x16.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x16.size a ≤ S100000x16.size a
  hwx2_6 : ∀ i : grid2.Coords, EltTy.bits .f32 = 32 ∨ (Rect.block (s := S100000x16) S4000x16.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x16.size a ≤ S100000x16.size a
  hwx3_0 : ∀ i : grid3.Coords, EltTy.bits .f32 = 32 ∨ (Rect.block (s := S100000x16) S4000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x16.size a ≤ S100000x16.size a
  hwx3_1 : ∀ i : grid3.Coords, EltTy.bits .f32 = 32 ∨ (Rect.block (s := S100000x16) S4000x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x16.size a ≤ S100000x16.size a
  hwx3_2 : ∀ i : grid3.Coords, EltTy.bits .f32 = 32 ∨ (Rect.block (s := S100000x16) S4000x16.size (cc3_transform_2 i) (hinb3_2 i)).WholeWords (EltTy.packing .f32)

variable [Facts₀]

def dot_S4000x256_S256x32_S4000x32_1_0_0_1_n_n : DotDims S4000x256 S256x32 S4000x32 where
  lhsContracting := [1]
  rhsContracting := [0]
  lhsNonContracting := [0]
  rhsNonContracting := [1]
  lhsBatch := []
  rhsBatch := []
  wf := dot_S4000x256_S256x32_S4000x32_1_0_0_1_n_n_wf
def dot_S4000x32_S32x32_S4000x32_1_0_0_1_n_n : DotDims S4000x32 S32x32 S4000x32 where
  lhsContracting := [1]
  rhsContracting := [0]
  lhsNonContracting := [0]
  rhsNonContracting := [1]
  lhsBatch := []
  rhsBatch := []
  wf := dot_S4000x32_S32x32_S4000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S4000x32_S32x16_S4000x16_1_0_0_1_n_n : DotDims S4000x32 S32x16 S4000x16 where
  lhsContracting := [1]
  rhsContracting := [0]
  lhsNonContracting := [0]
  rhsNonContracting := [1]
  lhsBatch := []
  rhsBatch := []
  wf := dot_S4000x32_S32x16_S4000x16_1_0_0_1_n_n_wf
def dot_S4000x16_S16x16_S4000x16_1_0_0_1_n_n : DotDims S4000x16 S16x16 S4000x16 where
  lhsContracting := [1]
  rhsContracting := [0]
  lhsNonContracting := [0]
  rhsNonContracting := [1]
  lhsBatch := []
  rhsBatch := []
  wf := dot_S4000x16_S16x16_S4000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6_0) S4000x32.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_1) S4000x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v6_1) S4000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S4000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S4000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v17) S4000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S16x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v18) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S16x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v19) S1x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v20_0) S4000x16.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v20_1) S4000x16.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v20_1) S4000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S4000x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v31) S4000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x256 : Shape := ⟨2, ![100000, 256]⟩
abbrev S32x256 : Shape := ⟨2, ![32, 256]⟩
abbrev S32 : Shape := ⟨1, ![32]⟩
abbrev S32x32 : Shape := ⟨2, ![32, 32]⟩
abbrev S16x32 : Shape := ⟨2, ![16, 32]⟩
abbrev S16 : Shape := ⟨1, ![16]⟩
abbrev S16x16 : Shape := ⟨2, ![16, 16]⟩
abbrev S2x1600000 : Shape := ⟨2, ![2, 1600000]⟩
abbrev S1x1600000 : Shape := ⟨2, ![1, 1600000]⟩
abbrev S1600000 : Shape := ⟨1, ![1600000]⟩
abbrev S256x32 : Shape := ⟨2, ![256, 32]⟩
abbrev S100000x32 : Shape := ⟨2, ![100000, 32]⟩
abbrev S1x32 : Shape := ⟨2, ![1, 32]⟩
abbrev S_ : Shape := ⟨0, ![]⟩
abbrev S1600000x1 : Shape := ⟨2, ![1600000, 1]⟩
abbrev S1600000x32 : Shape := ⟨2, ![1600000, 32]⟩
abbrev S32x16 : Shape := ⟨2, ![32, 16]⟩
abbrev S100000x16 : Shape := ⟨2, ![100000, 16]⟩
abbrev S1x16 : Shape := ⟨2, ![1, 16]⟩
abbrev S1600000x16 : Shape := ⟨2, ![1600000, 16]⟩
abbrev S100000 : Shape := ⟨1, ![100000]⟩
abbrev S100000x1 : Shape := ⟨2, ![100000, 1]⟩

abbrev nBuf : Space → Nat
  | .hbm => 80
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S32x256, .f32⟩
  | .hbm, ⟨2, _⟩ => ⟨S32, .f32⟩
  | .hbm, ⟨3, _⟩ => ⟨S32x32, .f32⟩
  | .hbm, ⟨4, _⟩ => ⟨S32, .f32⟩
  | .hbm, ⟨5, _⟩ => ⟨S16x32, .f32⟩
  | .hbm, ⟨6, _⟩ => ⟨S16, .f32⟩
  | .hbm, ⟨7, _⟩ => ⟨S16x16, .f32⟩
  | .hbm, ⟨8, _⟩ => ⟨S16, .f32⟩
  | .hbm, ⟨9, _⟩ => ⟨S2x1600000, .i32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S256x32, .f32⟩
  | .hbm, ⟨15, _⟩ => ⟨S100000x32, .f32⟩
  | .hbm, ⟨16, _⟩ => ⟨S1x32, .f32⟩
  | .hbm, ⟨17, _⟩ => ⟨S100000x32, .f32⟩
  | .hbm, ⟨18, _⟩ => ⟨S100000x32, .f32⟩
  | .hbm, ⟨19, _⟩ => ⟨S32x32, .f32⟩
  | .hbm, ⟨20, _⟩ => ⟨S100000x32, .f32⟩
  | .hbm, ⟨21, _⟩ => ⟨S1x32, .f32⟩
  | .hbm, ⟨22, _⟩ => ⟨S100000x32, .f32⟩
  | .hbm, ⟨23, _⟩ => ⟨S100000x32, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x32, .f32⟩
  | .hbm, ⟨33, _⟩ => ⟨S_, .f32⟩
  | .hbm, ⟨34, _⟩ => ⟨S100000x32, .f32⟩
  | .hbm, ⟨35, _⟩ => ⟨S1600000x1, .i32⟩
  | .hbm, ⟨36, _⟩ => ⟨S100000x32, .f32⟩
  | .hbm, ⟨37, _⟩ => ⟨S100000x32, .f32⟩
  | .hbm, ⟨38, _⟩ => ⟨S_, .f32⟩
  | .hbm, ⟨39, _⟩ => ⟨S100000x32, .f32⟩
  | .hbm, ⟨40, _⟩ => ⟨S100000x32, .f32⟩
  | .hbm, ⟨41, _⟩ => ⟨S32x16, .f32⟩
  | .hbm, ⟨42, _⟩ => ⟨S100000x16, .f32⟩
  | .hbm, ⟨43, _⟩ => ⟨S1x16, .f32⟩
  | .hbm, ⟨44, _⟩ => ⟨S100000x16, .f32⟩
  | .hbm, ⟨45, _⟩ => ⟨S100000x16, .f32⟩
  | .hbm, ⟨46, _⟩ => ⟨S16x16, .f32⟩
  | .hbm, ⟨47, _⟩ => ⟨S100000x16, .f32⟩
  | .hbm, ⟨48, _⟩ => ⟨S1x16, .f32⟩
  | .hbm, ⟨49, _⟩ => ⟨S100000x16, .f32⟩
  | .hbm, ⟨50, _⟩ => ⟨S100000x16, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x16, .f32⟩
  | .hbm, ⟨60, _⟩ => ⟨S_, .f32⟩
  | .hbm, ⟨61, _⟩ => ⟨S100000x16, .f32⟩
  | .hbm, ⟨62, _⟩ => ⟨S1600000x1, .i32⟩
  | .hbm, ⟨63, _⟩ => ⟨S100000x16, .f32⟩
  | .hbm, ⟨64, _⟩ => ⟨S100000x16, .f32⟩
  | .hbm, ⟨65, _⟩ => ⟨S_, .f32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x16, .f32⟩
  | .hbm, ⟨72, _⟩ => ⟨S100000x16, .f32⟩
  | .hbm, ⟨73, _⟩ => ⟨S100000x16, .f32⟩
  | .hbm, ⟨74, _⟩ => ⟨S_, .f32⟩
  | .hbm, ⟨75, _⟩ => ⟨S100000, .f32⟩
  | .hbm, ⟨76, _⟩ => ⟨S100000x1, .f32⟩
  | .hbm, ⟨77, _⟩ => ⟨S100000x1, .f32⟩
  | .hbm, ⟨78, _⟩ => ⟨S100000x16, .f32⟩
  | .hbm, ⟨79, _⟩ => ⟨S100000x16, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call0_cst : Ref sig .tc := ⟨.hbm, 38, rfl⟩
abbrev main_call0_v0 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_1 : Ref sig .tc := ⟨.hbm, 51, rfl⟩
abbrev main_v36 : Ref sig .tc := ⟨.hbm, 52, rfl⟩
abbrev main_v37 : Ref sig .tc := ⟨.hbm, 53, rfl⟩
abbrev main_c_2 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_3 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_call1_cst : Ref sig .tc := ⟨.hbm, 65, rfl⟩
abbrev main_call1_v0 : Ref sig .tc := ⟨.hbm, 66, rfl⟩
abbrev main_call1_cst_0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_v6 : Ref sig .tc := ⟨.hbm, 73, rfl⟩
abbrev main_call1_cst_1 : Ref sig .tc := ⟨.hbm, 74, rfl⟩
abbrev main_call1_v7 : Ref sig .tc := ⟨.hbm, 75, rfl⟩
abbrev main_call1_v8 : Ref sig .tc := ⟨.hbm, 76, rfl⟩
abbrev main_call1_v9 : Ref sig .tc := ⟨.hbm, 77, rfl⟩
abbrev main_call1_v10 : Ref sig .tc := ⟨.hbm, 78, rfl⟩
abbrev main_v47 : Ref sig .tc := ⟨.hbm, 79, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S32x256_S256x32_1_0 : S32x256.Transposes [1, 0] S256x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  transposes_S32x32_S32x32_1_0 : S32x32.Transposes [1, 0] S32x32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  transposes_S16x32_S32x16_1_0 : S16x32.Transposes [1, 0] S32x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  transposes_S16x16_S16x16_1_0 : S16x16.Transposes [1, 0] S16x16
  bcast_S_S100000x16 : S_.BroadcastsInDim S100000x16 (![] : Fin 0 → Fin S100000x16.rank)
  reducesTo_S100000x16_S100000_d1 : S100000x16.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  dot_S100000x256_S256x32_S100000x32_1_0_0_1_n_n_wf : DotDims.WF S100000x256 S256x32 S100000x32 [1] [0] [0] [1] [] []
  dot_S100000x32_S32x32_S100000x32_1_0_0_1_n_n_wf : DotDims.WF S100000x32 S32x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x16_S100000x16_1_0_0_1_n_n_wf : DotDims.WF S100000x32 S32x16 S100000x16 [1] [0] [0] [1] [] []
  dot_S100000x16_S16x16_S100000x16_1_0_0_1_n_n_wf : DotDims.WF S100000x16 S16x16 S100000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1

variable [Facts₀]

def dot_S100000x256_S256x32_S100000x32_1_0_0_1_n_n : DotDims S100000x256 S256x32 S100000x32 where
  lhsContracting := [1]
  rhsContracting := [0]
  lhsNonContracting := [0]
  rhsNonContracting := [1]
  lhsBatch := []
  rhsBatch := []
  wf := dot_S100000x256_S256x32_S100000x32_1_0_0_1_n_n_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf

class Facts : Prop extends Facts₀ where

variable [Facts]
-- ==== Proof.LibDense.lean ====
/-
  Dense layers on the extended reals, index by index.

  A matrix here is a function of a two-coordinate index into the extended reals.  `mm X W` is the
  textbook product: entry (r, j) is the sum over k of X (r, k) * W (k, j).  A matrix unit's product into a zero
  accumulator, read at an output index, is that sum (`matmul_zero_eq`), whatever the formats of the operands
  (a change of float format is the identity on the extended reals); the host's `dot_general` likewise
  (`dotGeneral_eq`).  `ssp` is the shifted softplus as the kernel spells it,
  max z 0 + log1p (exp (0 - |z - 0|)) - log 2 under a guard `z - 0 ≠ z - 0` that never fires on the
  extended reals, and `ssp_host` says that the host's spelling, with a negation in place of the subtraction
  from zero, is the same number.
-/
import Idealize.ShloMosaic.Lib.ValueIdx
import Idealize.ShloMosaic.Lib.Pipeline.Value
import Idealize.ShloMosaic.PureOps.Ideal.Laws

noncomputable section

namespace Cert.Dense

open Idealize.ShloMosaic Idealize.ShloMosaic.ValueIdx

/-- Entry (r, j) of the product of an [R, K] matrix and a [K, C] matrix: the sum over k of X (r, k) * W (k, j). -/
def mm {R K C : Nat} (X : (⟨2, ![R, K]⟩ : Shape).Idx → EReal) (W : (⟨2, ![K, C]⟩ : Shape).Idx → EReal) :
    (⟨2, ![R, C]⟩ : Shape).Idx → EReal :=
  fun i => ∑ k : Fin K, X (ix2 (i 0) k) * W (ix2 k (i 1))

/-- A product into the zero accumulator, with dimension numbers that contract the left operand's second axis
    with the right operand's first, is `mm` at every output index. -/
theorem matmul_zero_eq {R K C : Nat} {φ₁ φ₂ : FTy}
    (D : DotDims ⟨2, ![R, K]⟩ ⟨2, ![K, C]⟩ ⟨2, ![R, C]⟩)
    (hr : D.contr.rank = 1) (hs : D.contr.size ⟨0, by omega⟩ = K)
    (l0 : ∀ i q, (D.lhsIdx i q 0).val = (i 0).val) (l1 : ∀ i q, (D.lhsIdx i q 1).val = (q ⟨0, by omega⟩).val)
    (r0 : ∀ i q, (D.rhsIdx i q 0).val = (q ⟨0, by omega⟩).val) (r1 : ∀ i q, (D.rhsIdx i q 1).val = (i 1).val)
    (prec : Option ContractPrecision)
    (lhs : FVec Ideal ⟨2, ![R, K]⟩ φ₁) (rhs : FVec Ideal ⟨2, ![K, C]⟩ φ₂) (j : (⟨2, ![R, C]⟩ : Shape).Idx) :
    FloatOps.matmul D prec lhs rhs (constant ⟨2, ![R, C]⟩ .f32 0x00000000#32) j = mm lhs rhs j := by
  rw [Ideal.matmul_constant_zero_apply, ← Equiv.sum_comp (contrEquiv1 D K hr hs).symm]
  unfold mm
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  rw [el, er]
  rfl

/-- The host's product of the same operands is the same sum. -/
theorem dotGeneral_eq {R K C : Nat} {φ₁ φ₂ : FTy}
    (D : DotDims ⟨2, ![R, K]⟩ ⟨2, ![K, C]⟩ ⟨2, ![R, C]⟩)
    (hr : D.contr.rank = 1) (hs : D.contr.size ⟨0, by omega⟩ = K)
    (l0 : ∀ i q, (D.lhsIdx i q 0).val = (i 0).val) (l1 : ∀ i q, (D.lhsIdx i q 1).val = (q ⟨0, by omega⟩).val)
    (r0 : ∀ i q, (D.rhsIdx i q 0).val = (q ⟨0, by omega⟩).val) (r1 : ∀ i q, (D.rhsIdx i q 1).val = (i 1).val)
    (prec : Option ContractPrecision) (sched : HostSchedule)
    (lhs : FVec Ideal ⟨2, ![R, K]⟩ φ₁) (rhs : FVec Ideal ⟨2, ![K, C]⟩ φ₂) (j : (⟨2, ![R, C]⟩ : Shape).Idx) :
    FloatOps.dotGeneral D prec sched lhs rhs j = mm lhs rhs j := by
  rw [Ideal.dotGeneral_apply, ← Equiv.sum_comp (contrEquiv1 D K hr hs).symm]
  unfold mm
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  rw [el, er]
  rfl

/-- Two products agree at two entries when the left operands agree along the two rows and the right operands
    along the two columns. -/
theorem mm_congr {R R' K C C' : Nat} {X : (⟨2, ![R, K]⟩ : Shape).Idx → EReal} {X' : (⟨2, ![R', K]⟩ : Shape).Idx → EReal}
    {W : (⟨2, ![K, C]⟩ : Shape).Idx → EReal} {W' : (⟨2, ![K, C']⟩ : Shape).Idx → EReal}
    (i : (⟨2, ![R, C]⟩ : Shape).Idx) (i' : (⟨2, ![R', C']⟩ : Shape).Idx)
    (hX : ∀ k : Fin K, X (ix2 (i 0) k) = X' (ix2 (i' 0) k))
    (hW : ∀ k : Fin K, W (ix2 k (i 1)) = W' (ix2 k (i' 1))) : mm X W i = mm X' W' i' := by
  unfold mm
  exact Finset.sum_congr rfl fun k _ => by rw [hX k, hW k]

/-- The zero and the shift of the softplus, as the float words both programs spell. -/
abbrev z0 : EReal := Ideal.ofBits .f32 0x00000000#32
abbrev ln2 : EReal := Ideal.ofBits .f32 0x3F317218#32

/-- The shifted softplus of one extended real, in the kernel's spelling. -/
def ssp (z : EReal) : EReal :=
  Scalar.select (Ideal.cmp .one (z - z0) (z - z0)) (z + z0)
    (max z z0 + Ideal.log1p (Ideal.exp (z0 - max (z - z0) (-(z - z0))))) - ln2

/-- The host's spelling: the unordered comparison in the guard (the same comparison on a linear order) and a
    negation where the kernel subtracts from zero. -/
theorem ssp_host (z : EReal) :
    Scalar.select (Ideal.cmp .une (z - z0) (z - z0)) (z + z0)
      (max z z0 + Ideal.log1p (Ideal.exp (-(max (z - z0) (-(z - z0)))))) - ln2 = ssp z := by
  unfold ssp
  have h0 : ∀ a : EReal, z0 - a = -a := fun a => by
    show Ideal.ofBits .f32 0x00000000#32 - a = -a
    rw [Ideal.ofBits_zero_f32, zero_sub]
  rw [h0]
  rfl

/-! ## The layers of the interaction block, entry by entry

  A bias is kept as the [1, C] row both programs hand to the layer; the per-edge distance as an [E, 1] column. -/

/-- The cosine cutoff's constants, as the float words both programs spell: π/10 rounded to f32, one, one half. -/
abbrev kpi : EReal := Ideal.ofBits .f32 0x3EA0D97C#32
abbrev one : EReal := Ideal.ofBits .f32 0x3F800000#32
abbrev half : EReal := Ideal.ofBits .f32 0x3F000000#32

/-- A length-C vector as the [1, C] row a layer takes its bias as, and a length-E vector as an [E, 1] column. -/
def row {C : Nat} (b : (⟨1, ![C]⟩ : Shape).Idx → EReal) : (⟨2, ![1, C]⟩ : Shape).Idx → EReal := fun i => b (ix1 (i 1))
def col {E : Nat} (d : (⟨1, ![E]⟩ : Shape).Idx → EReal) : (⟨2, ![E, 1]⟩ : Shape).Idx → EReal := fun i => d (ix1 (i 0))

/-- A dense layer: entry (r, j) of X · W plus the bias row's entry j. -/
def lin {R K C : Nat} (X : (⟨2, ![R, K]⟩ : Shape).Idx → EReal) (W : (⟨2, ![K, C]⟩ : Shape).Idx → EReal)
    (B : (⟨2, ![1, C]⟩ : Shape).Idx → EReal) : (⟨2, ![R, C]⟩ : Shape).Idx → EReal :=
  fun i => mm X W i + B (ix2 (0 : Fin 1) (i 1))

/-- The cosine cutoff of row r's distance d: one half of (cos (d · π/10) + 1). -/
def cutoff {R : Nat} (D : (⟨2, ![R, 1]⟩ : Shape).Idx → EReal) (r : Fin R) : EReal :=
  half * (Ideal.cos (D (ix2 r (0 : Fin 1)) * kpi) + one)

/-- Two dense layers with the shifted softplus between them. -/
def mlp {R K C C' : Nat} (X : (⟨2, ![R, K]⟩ : Shape).Idx → EReal) (W1 : (⟨2, ![K, C]⟩ : Shape).Idx → EReal)
    (B1 : (⟨2, ![1, C]⟩ : Shape).Idx → EReal) (W2 : (⟨2, ![C, C']⟩ : Shape).Idx → EReal)
    (B2 : (⟨2, ![1, C']⟩ : Shape).Idx → EReal) : (⟨2, ![R, C']⟩ : Shape).Idx → EReal :=
  lin (fun i' => ssp (lin X W1 B1 i')) W2 B2

/-- The edge filter: the two-layer filter network of an edge's features, times the edge's cutoff. -/
def edgeFilter {E K C C' : Nat} (A : (⟨2, ![E, K]⟩ : Shape).Idx → EReal) (D : (⟨2, ![E, 1]⟩ : Shape).Idx → EReal)
    (W1 : (⟨2, ![K, C]⟩ : Shape).Idx → EReal) (B1 : (⟨2, ![1, C]⟩ : Shape).Idx → EReal)
    (W2 : (⟨2, ![C, C']⟩ : Shape).Idx → EReal) (B2 : (⟨2, ![1, C']⟩ : Shape).Idx → EReal) :
    (⟨2, ![E, C']⟩ : Shape).Idx → EReal :=
  fun i => mlp A W1 B1 W2 B2 i * cutoff D (i 0)

/-- Two dense layers agree at an entry when their inputs agree on the entry's row and their weights and biases
    on its column. -/
theorem lin_congr {R R' K C : Nat} {X : (⟨2, ![R, K]⟩ : Shape).Idx → EReal} {X' : (⟨2, ![R', K]⟩ : Shape).Idx → EReal}
    {W W' : (⟨2, ![K, C]⟩ : Shape).Idx → EReal} {B B' : (⟨2, ![1, C]⟩ : Shape).Idx → EReal}
    (i : (⟨2, ![R, C]⟩ : Shape).Idx) (i' : (⟨2, ![R', C]⟩ : Shape).Idx) (h1 : i 1 = i' 1)
    (hX : ∀ k : Fin K, X (ix2 (i 0) k) = X' (ix2 (i' 0) k)) (hW : W = W') (hB : B = B') :
    lin X W B i = lin X' W' B' i' := by
  subst hW hB
  unfold lin mm
  rw [h1]
  exact congrArg (· + B (ix2 (0 : Fin 1) (i' 1))) (Finset.sum_congr rfl fun k _ => by rw [hX k])

end Cert.Dense

end
-- ==== Proof.Spec.lean ====
/-
  What one graph-convolution network computes, entry by entry, on the extended reals.

  A matrix is a function of a two-coordinate index. A layer takes the node features X, one row per node, and two weight
  matrices stored output-major, Wa of shape [C, K] and Wb of shape [C, C], with bias rows ba and bb:

      h = X · Waᵀ + ba            the message every node sends            (`sentRows`)
      f = h · Wbᵀ + bb            the node's own new features             (`keptRows`)

  and its output is f + agg h, where `agg` sums, for every node, the messages of the nodes with an edge into it. The
  aggregation is the same pair of host operations (a gather of rows and an accumulating scatter) in both programs, so it
  stays a parameter here. The first layer ends in a rectified sum, max (f + a) 0; the second in a row-wise log-softmax of
  the sum z = f + a in its shifted form: with M r the maximum of row r,

      out (r, j) = (z (r, j) - M r) - log (∑ k, exp (z (r, k) - M r)).

  The row maximum is the fold of `max` from the float word of -inf, as both programs take it; nothing below evaluates that
  word. The one law needed beyond rearranging sums is that a fold of `max` from b is at least b, so taking the maximum with
  b once more changes nothing.
-/
import Mathlib.Data.Finset.Fold
import Idealize.ShloMosaic.Lib.ValueIdx
import Idealize.ShloMosaic.PureOps.Ideal.Laws
import proofs.«181623_j44555990728725_1_alg».proof.Proof.LibDense

noncomputable section

namespace Cert.GraphNet

open Idealize.ShloMosaic Idealize.ShloMosaic.ValueIdx

/-- An [a, b] matrix of extended reals. -/
abbrev Mat (a b : Nat) : Type := (⟨2, ![a, b]⟩ : Shape).Idx → EReal

/-- A matrix stored output-major, read input-major: entry (k, j) of the transpose is entry (j, k). -/
def tr {a b : Nat} (W : Mat a b) : Mat b a := fun i => W (ix2 (i 1) (i 0))

/-- The message rows: X · Waᵀ + ba. -/
def sentRows {R K C : Nat} (X : Mat R K) (Wa : Mat C K) (Ba : Mat 1 C) : Mat R C :=
  Cert.Dense.lin X (tr Wa) Ba

/-- The nodes' own new features: (X · Waᵀ + ba) · Wbᵀ + bb. -/
def keptRows {R K C : Nat} (X : Mat R K) (Wa : Mat C K) (Ba : Mat 1 C) (Wb : Mat C C) (Bb : Mat 1 C) : Mat R C :=
  Cert.Dense.lin (sentRows X Wa Ba) (tr Wb) Bb

/-- The float words both programs spell: zero and -inf. -/
abbrev zeroW : EReal := Ideal.ofBits .f32 0x00000000#32
abbrev negInfW : EReal := Ideal.ofBits .f32 0xFF800000#32

/-- The rectified sum of the own features and the aggregated messages. -/
def reluSum {R C : Nat} (A B : Mat R C) : Mat R C := fun i => max (A i + B i) zeroW

/-- The maximum of row r, folded from the word of -inf. -/
def rowMax {R C : Nat} (Z : Mat R C) (r : Fin R) : EReal :=
  (Finset.univ : Finset (Fin C)).fold max negInfW (fun k => Z (ix2 r k))

/-- The shifted row: z (r, j) - M r. -/
def shifted {R C : Nat} (Z : Mat R C) (r : Fin R) (j : Fin C) : EReal := Z (ix2 r j) - rowMax Z r

/-- The row-wise log-softmax in its shifted form. -/
def logSoftmax {R C : Nat} (Z : Mat R C) : Mat R C :=
  fun i => shifted Z (i 0) (i 1) - Ideal.log (∑ k : Fin C, Ideal.exp (shifted Z (i 0) k))

/-- The sum of two matrices, entry by entry. -/
def plus {R C : Nat} (A B : Mat R C) : Mat R C := fun i => A i + B i

/-- A fold of `max` from b is at least b: the maximum with b once more is the fold. -/
theorem max_fold_self {ι : Type} (s : Finset ι) (b : EReal) (f : ι → EReal) :
    max b (s.fold max b f) = s.fold max b f :=
  max_eq_right ((Finset.le_fold_max b).mpr (Or.inl le_rfl))

/-- Two layers' message rows agree at an entry when the inputs agree along the entry's row. -/
theorem sentRows_congr1 {R R' K C : Nat} {X : Mat R K} {X' : Mat R' K} (Wa : Mat C K) (Ba : Mat 1 C)
    (i : (⟨2, ![R, C]⟩ : Shape).Idx) (i' : (⟨2, ![R', C]⟩ : Shape).Idx) (h1 : i 1 = i' 1)
    (hX : ∀ k : Fin K, X (ix2 (i 0) k) = X' (ix2 (i' 0) k)) : sentRows X Wa Ba i = sentRows X' Wa Ba i' :=
  Cert.Dense.lin_congr i i' h1 hX rfl rfl

/-- Two indices of a rank-2 shape are equal when their coordinates are equal as numbers. -/
theorem idx2_ext {a b : Nat} (i i' : (⟨2, ![a, b]⟩ : Shape).Idx) (h0 : (i 0).val = (i' 0).val) (h1 : (i 1).val = (i' 1).val) :
    i = i' :=
  funext fun d => Fin.ext (match d with
    | ⟨0, _⟩ => h0
    | ⟨1, _⟩ => h1)

/-- Message rows of two inputs agree at two entries of one column when the inputs agree along the two rows. -/
theorem sentRows_congr {R R' K C : Nat} {X : Mat R K} {X' : Mat R' K} {Wa Wa' : Mat C K} {Ba Ba' : Mat 1 C}
    (i : (⟨2, ![R, C]⟩ : Shape).Idx) (i' : (⟨2, ![R', C]⟩ : Shape).Idx) (h1 : i 1 = i' 1)
    (hX : ∀ k : Fin K, X (ix2 (i 0) k) = X' (ix2 (i' 0) k)) (hW : Wa = Wa') (hB : Ba = Ba') :
    sentRows X Wa Ba i = sentRows X' Wa' Ba' i' := by
  subst hW hB
  exact Cert.Dense.lin_congr i i' h1 hX rfl rfl

/-- … and so do the own features. -/
theorem keptRows_congr {R R' K C : Nat} {X : Mat R K} {X' : Mat R' K} {Wa Wa' : Mat C K} {Ba Ba' : Mat 1 C}
    {Wb Wb' : Mat C C} {Bb Bb' : Mat 1 C}
    (i : (⟨2, ![R, C]⟩ : Shape).Idx) (i' : (⟨2, ![R', C]⟩ : Shape).Idx) (h1 : i 1 = i' 1)
    (hX : ∀ k : Fin K, X (ix2 (i 0) k) = X' (ix2 (i' 0) k)) (hWa : Wa = Wa') (hBa : Ba = Ba') (hWb : Wb = Wb') (hBb : Bb = Bb') :
    keptRows X Wa Ba Wb Bb i = keptRows X' Wa' Ba' Wb' Bb' i' := by
  subst hWa hBa hWb hBb
  unfold keptRows
  exact Cert.Dense.lin_congr i i' h1
    (fun k => sentRows_congr (ix2 (i 0) k) (ix2 (i' 0) k) rfl hX rfl rfl) rfl rfl

/-- The log-softmax of two matrices agrees at two entries of one column when the matrices agree along the two rows. -/
theorem logSoftmax_congr2 {R R' C : Nat} {Z : Mat R C} {Z' : Mat R' C}
    (i : (⟨2, ![R, C]⟩ : Shape).Idx) (i' : (⟨2, ![R', C]⟩ : Shape).Idx) (h1 : i 1 = i' 1)
    (hZ : ∀ k : Fin C, Z (ix2 (i 0) k) = Z' (ix2 (i' 0) k)) : logSoftmax Z i = logSoftmax Z' i' := by
  have hM : rowMax Z (i 0) = rowMax Z' (i' 0) := by
    unfold rowMax
    exact congrArg (fun f : Fin C → EReal => (Finset.univ : Finset (Fin C)).fold max negInfW f) (funext hZ)
  have hs : ∀ k : Fin C, shifted Z (i 0) k = shifted Z' (i' 0) k := fun k => by
    unfold shifted; rw [hZ k, hM]
  unfold logSoftmax
  rw [h1, hs (i' 1)]
  exact congrArg (shifted Z' (i' 0) (i' 1) - Ideal.log ·) (Finset.sum_congr rfl fun k _ => by rw [hs k])

end Cert.GraphNet

end
-- ==== Proof.LibLayoutCol.lean ====
/-
  Two layout operations read at an index written by coordinates, for a column kept after a reduction along the
  rows' second axis: a vector of length a viewed as an [a, 1] column, and an [a, 1] column repeated along b columns.
  They complete the leading-unit-axis forms of the library's ValueLayout file.
-/
import Idealize.ShloMosaic.Lib.Pipeline.Value
import Idealize.ShloMosaic.Lib.ValueIdx

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.BodyValues.lean ====
/-
  The four kernel bodies read at an entry, at the exact instance.

  A body's stored value is a pure function of the blocks it loads. At the exact instance a change of float format is the
  identity, a matrix unit's product into a zero accumulator is the textbook sum over the contracted axis, a transpose in
  front of it swaps the two coordinates of the weight it reads, and a bias row broadcast down the rows reads the row's one
  entry of that column. So the first stored value of a linear body is the message rows `sentRows` of its blocks, the second
  the own features `keptRows`; the combining body of the first layer is the rectified sum; the combining body of the second
  is the shifted log-softmax, its lane maximum the fold of `max` from the accumulator's word over the row and its lane sum
  the plain sum over the row.
-/
import proofs.«181623_j44555990728725_1_alg».proof.Proof.Gen.KernelIdeal.Skeleton
import proofs.«181623_j44555990728725_1_alg».proof.Proof.Spec
import proofs.«181623_j44555990728725_1_alg».proof.Proof.LibLayoutCol
import Idealize.ShloMosaic.Lib.ValueLayout
import Idealize.ShloMosaic.Lib.Pipeline.Value
import Idealize.ShloMosaic.PureOps.Ideal.Laws

noncomputable section

namespace Cert.KernelIdeal.Bodies

open Idealize.ShloMosaic Idealize.ShloMosaic.ValueIdx Cert.KernelIdeal Cert.KernelIdeal.Gen Cert.GraphNet

/-! ## Where each product reads its operands: the left at (row, k), the right at (k, column) -/

theorem d1a_l0 (i : S4000x32.Idx) (q : dot_S4000x256_S256x32_S4000x32_1_0_0_1_n_n.contr.Idx) : (dot_S4000x256_S256x32_S4000x32_1_0_0_1_n_n.lhsIdx i q 0).val = (i 0).val := by
  unfold DotDims.lhsIdx
  rw [dif_neg (show ¬(0 : Fin S4000x256.rank) ∈ dot_S4000x256_S256x32_S4000x32_1_0_0_1_n_n.lhsBatch by decide), dif_pos (show (0 : Fin S4000x256.rank) ∈ dot_S4000x256_S256x32_S4000x32_1_0_0_1_n_n.lhsNonContracting by decide)]
  rfl
theorem d1a_l1 (i : S4000x32.Idx) (q : dot_S4000x256_S256x32_S4000x32_1_0_0_1_n_n.contr.Idx) : (dot_S4000x256_S256x32_S4000x32_1_0_0_1_n_n.lhsIdx i q 1).val = (q ⟨0, by decide⟩).val :=
  dot_S4000x256_S256x32_S4000x32_1_0_0_1_n_n.lhsIdx_val_of_single rfl i q
theorem d1a_r0 (i : S4000x32.Idx) (q : dot_S4000x256_S256x32_S4000x32_1_0_0_1_n_n.contr.Idx) : (dot_S4000x256_S256x32_S4000x32_1_0_0_1_n_n.rhsIdx i q 0).val = (q ⟨0, by decide⟩).val :=
  dot_S4000x256_S256x32_S4000x32_1_0_0_1_n_n.rhsIdx_val_of_single rfl i q
theorem d1a_r1 (i : S4000x32.Idx) (q : dot_S4000x256_S256x32_S4000x32_1_0_0_1_n_n.contr.Idx) : (dot_S4000x256_S256x32_S4000x32_1_0_0_1_n_n.rhsIdx i q 1).val = (i 1).val := by
  unfold DotDims.rhsIdx
  rw [dif_neg (show ¬(1 : Fin S256x32.rank) ∈ dot_S4000x256_S256x32_S4000x32_1_0_0_1_n_n.rhsBatch by decide), dif_pos (show (1 : Fin S256x32.rank) ∈ dot_S4000x256_S256x32_S4000x32_1_0_0_1_n_n.rhsNonContracting by decide)]
  rfl

theorem d1b_l0 (i : S4000x32.Idx) (q : dot_S4000x32_S32x32_S4000x32_1_0_0_1_n_n.contr.Idx) : (dot_S4000x32_S32x32_S4000x32_1_0_0_1_n_n.lhsIdx i q 0).val = (i 0).val := by
  unfold DotDims.lhsIdx
  rw [dif_neg (show ¬(0 : Fin S4000x32.rank) ∈ dot_S4000x32_S32x32_S4000x32_1_0_0_1_n_n.lhsBatch by decide), dif_pos (show (0 : Fin S4000x32.rank) ∈ dot_S4000x32_S32x32_S4000x32_1_0_0_1_n_n.lhsNonContracting by decide)]
  rfl
theorem d1b_l1 (i : S4000x32.Idx) (q : dot_S4000x32_S32x32_S4000x32_1_0_0_1_n_n.contr.Idx) : (dot_S4000x32_S32x32_S4000x32_1_0_0_1_n_n.lhsIdx i q 1).val = (q ⟨0, by decide⟩).val :=
  dot_S4000x32_S32x32_S4000x32_1_0_0_1_n_n.lhsIdx_val_of_single rfl i q
theorem d1b_r0 (i : S4000x32.Idx) (q : dot_S4000x32_S32x32_S4000x32_1_0_0_1_n_n.contr.Idx) : (dot_S4000x32_S32x32_S4000x32_1_0_0_1_n_n.rhsIdx i q 0).val = (q ⟨0, by decide⟩).val :=
  dot_S4000x32_S32x32_S4000x32_1_0_0_1_n_n.rhsIdx_val_of_single rfl i q
theorem d1b_r1 (i : S4000x32.Idx) (q : dot_S4000x32_S32x32_S4000x32_1_0_0_1_n_n.contr.Idx) : (dot_S4000x32_S32x32_S4000x32_1_0_0_1_n_n.rhsIdx i q 1).val = (i 1).val := by
  unfold DotDims.rhsIdx
  rw [dif_neg (show ¬(1 : Fin S32x32.rank) ∈ dot_S4000x32_S32x32_S4000x32_1_0_0_1_n_n.rhsBatch by decide), dif_pos (show (1 : Fin S32x32.rank) ∈ dot_S4000x32_S32x32_S4000x32_1_0_0_1_n_n.rhsNonContracting by decide)]
  rfl

theorem d2a_l0 (i : S4000x16.Idx) (q : dot_S4000x32_S32x16_S4000x16_1_0_0_1_n_n.contr.Idx) : (dot_S4000x32_S32x16_S4000x16_1_0_0_1_n_n.lhsIdx i q 0).val = (i 0).val := by
  unfold DotDims.lhsIdx
  rw [dif_neg (show ¬(0 : Fin S4000x32.rank) ∈ dot_S4000x32_S32x16_S4000x16_1_0_0_1_n_n.lhsBatch by decide), dif_pos (show (0 : Fin S4000x32.rank) ∈ dot_S4000x32_S32x16_S4000x16_1_0_0_1_n_n.lhsNonContracting by decide)]
  rfl
theorem d2a_l1 (i : S4000x16.Idx) (q : dot_S4000x32_S32x16_S4000x16_1_0_0_1_n_n.contr.Idx) : (dot_S4000x32_S32x16_S4000x16_1_0_0_1_n_n.lhsIdx i q 1).val = (q ⟨0, by decide⟩).val :=
  dot_S4000x32_S32x16_S4000x16_1_0_0_1_n_n.lhsIdx_val_of_single rfl i q
theorem d2a_r0 (i : S4000x16.Idx) (q : dot_S4000x32_S32x16_S4000x16_1_0_0_1_n_n.contr.Idx) : (dot_S4000x32_S32x16_S4000x16_1_0_0_1_n_n.rhsIdx i q 0).val = (q ⟨0, by decide⟩).val :=
  dot_S4000x32_S32x16_S4000x16_1_0_0_1_n_n.rhsIdx_val_of_single rfl i q
theorem d2a_r1 (i : S4000x16.Idx) (q : dot_S4000x32_S32x16_S4000x16_1_0_0_1_n_n.contr.Idx) : (dot_S4000x32_S32x16_S4000x16_1_0_0_1_n_n.rhsIdx i q 1).val = (i 1).val := by
  unfold DotDims.rhsIdx
  rw [dif_neg (show ¬(1 : Fin S32x16.rank) ∈ dot_S4000x32_S32x16_S4000x16_1_0_0_1_n_n.rhsBatch by decide), dif_pos (show (1 : Fin S32x16.rank) ∈ dot_S4000x32_S32x16_S4000x16_1_0_0_1_n_n.rhsNonContracting by decide)]
  rfl

theorem d2b_l0 (i : S4000x16.Idx) (q : dot_S4000x16_S16x16_S4000x16_1_0_0_1_n_n.contr.Idx) : (dot_S4000x16_S16x16_S4000x16_1_0_0_1_n_n.lhsIdx i q 0).val = (i 0).val := by
  unfold DotDims.lhsIdx
  rw [dif_neg (show ¬(0 : Fin S4000x16.rank) ∈ dot_S4000x16_S16x16_S4000x16_1_0_0_1_n_n.lhsBatch by decide), dif_pos (show (0 : Fin S4000x16.rank) ∈ dot_S4000x16_S16x16_S4000x16_1_0_0_1_n_n.lhsNonContracting by decide)]
  rfl
theorem d2b_l1 (i : S4000x16.Idx) (q : dot_S4000x16_S16x16_S4000x16_1_0_0_1_n_n.contr.Idx) : (dot_S4000x16_S16x16_S4000x16_1_0_0_1_n_n.lhsIdx i q 1).val = (q ⟨0, by decide⟩).val :=
  dot_S4000x16_S16x16_S4000x16_1_0_0_1_n_n.lhsIdx_val_of_single rfl i q
theorem d2b_r0 (i : S4000x16.Idx) (q : dot_S4000x16_S16x16_S4000x16_1_0_0_1_n_n.contr.Idx) : (dot_S4000x16_S16x16_S4000x16_1_0_0_1_n_n.rhsIdx i q 0).val = (q ⟨0, by decide⟩).val :=
  dot_S4000x16_S16x16_S4000x16_1_0_0_1_n_n.rhsIdx_val_of_single rfl i q
theorem d2b_r1 (i : S4000x16.Idx) (q : dot_S4000x16_S16x16_S4000x16_1_0_0_1_n_n.contr.Idx) : (dot_S4000x16_S16x16_S4000x16_1_0_0_1_n_n.rhsIdx i q 1).val = (i 1).val := by
  unfold DotDims.rhsIdx
  rw [dif_neg (show ¬(1 : Fin S16x16.rank) ∈ dot_S4000x16_S16x16_S4000x16_1_0_0_1_n_n.rhsBatch by decide), dif_pos (show (1 : Fin S16x16.rank) ∈ dot_S4000x16_S16x16_S4000x16_1_0_0_1_n_n.rhsNonContracting by decide)]
  rfl

/-! ## The linear bodies -/

/-- The bias row broadcast down the rows, read at an entry: the row's entry of that column. -/
theorem bias32 (x2 : Vec Ideal S1x32 .f32) (y : S4000x32.Idx) :
    broadcastTo S4000x32 (shapeCast S1x32 x2 shapeCasts_S1x32_S1x32) broadcasts_S1x32_S4000x32 y = x2 (ix2 (0 : Fin 1) (y 1)) := by
  obtain ⟨p, q, rfl⟩ : ∃ (p : Fin 4000) (q : Fin 32), y = ix2 p q := ⟨y 0, y 1, eq_ix2 y⟩
  exact (broadcastTo_1b_ab_apply _ broadcasts_S1x32_S4000x32 p q).trans (congrFun (shapeCast_self x2 shapeCasts_S1x32_S1x32) _)

theorem bias16 (x2 : Vec Ideal S1x16 .f32) (y : S4000x16.Idx) :
    broadcastTo S4000x16 (shapeCast S1x16 x2 shapeCasts_S1x16_S1x16) broadcasts_S1x16_S4000x16 y = x2 (ix2 (0 : Fin 1) (y 1)) := by
  obtain ⟨p, q, rfl⟩ : ∃ (p : Fin 4000) (q : Fin 16), y = ix2 p q := ⟨y 0, y 1, eq_ix2 y⟩
  exact (broadcastTo_1b_ab_apply _ broadcasts_S1x16_S4000x16 p q).trans (congrFun (shapeCast_self x2 shapeCasts_S1x16_S1x16) _)

/-- The first layer's linear body stores, first, the message rows of its blocks. -/
theorem pay_sent1 (x0 : Vec Ideal S4000x256 .f32) (x1 : Vec Ideal S32x256 .f32) (x2 : Vec Ideal S1x32 .f32) (y : S4000x32.Idx) :
    k0_pay1 (F := Ideal) x0 x1 x2 y = sentRows (R := 4000) (K := 256) (C := 32) x0 x1 x2 y := by
  unfold k0_pay1 sentRows Cert.Dense.lin
  refine congrArg₂ (· + ·) ?_ (bias32 x2 y)
  refine (Cert.Dense.matmul_zero_eq dot_S4000x256_S256x32_S4000x32_1_0_0_1_n_n rfl rfl d1a_l0 d1a_l1 d1a_r0 d1a_r1 none _ _ y).trans ?_
  exact Cert.Dense.mm_congr y y (fun k => rfl) (fun k => transpose_ix2_apply _ _ k (y 1))

/-- … and, second, the own features. -/
theorem pay_kept1 (x0 : Vec Ideal S4000x256 .f32) (x1 : Vec Ideal S32x256 .f32) (x2 : Vec Ideal S1x32 .f32)
    (x3 : Vec Ideal S32x32 .f32) (x4 : Vec Ideal S1x32 .f32) (y : S4000x32.Idx) :
    k0_pay2 (F := Ideal) x0 x1 x2 x3 x4 y = keptRows (R := 4000) (K := 256) (C := 32) x0 x1 x2 x3 x4 y := by
  unfold k0_pay2 keptRows Cert.Dense.lin
  refine congrArg₂ (· + ·) ?_ (bias32 x4 y)
  refine (Cert.Dense.matmul_zero_eq dot_S4000x32_S32x32_S4000x32_1_0_0_1_n_n rfl rfl d1b_l0 d1b_l1 d1b_r0 d1b_r1 none _ _ y).trans ?_
  exact Cert.Dense.mm_congr y y (fun k => pay_sent1 x0 x1 x2 (ix2 (y 0) k)) (fun k => transpose_ix2_apply _ _ k (y 1))

/-- The second layer's linear body: the same two values at its widths. -/
theorem pay_sent2 (x0 : Vec Ideal S4000x32 .f32) (x1 : Vec Ideal S16x32 .f32) (x2 : Vec Ideal S1x16 .f32) (y : S4000x16.Idx) :
    k2_pay1 (F := Ideal) x0 x1 x2 y = sentRows (R := 4000) (K := 32) (C := 16) x0 x1 x2 y := by
  unfold k2_pay1 sentRows Cert.Dense.lin
  refine congrArg₂ (· + ·) ?_ (bias16 x2 y)
  refine (Cert.Dense.matmul_zero_eq dot_S4000x32_S32x16_S4000x16_1_0_0_1_n_n rfl rfl d2a_l0 d2a_l1 d2a_r0 d2a_r1 none _ _ y).trans ?_
  exact Cert.Dense.mm_congr y y (fun k => congrFun (shapeCast_self x0 shapeCasts_S4000x32_S4000x32) _) (fun k => transpose_ix2_apply _ _ k (y 1))

theorem pay_kept2 (x0 : Vec Ideal S4000x32 .f32) (x1 : Vec Ideal S16x32 .f32) (x2 : Vec Ideal S1x16 .f32)
    (x3 : Vec Ideal S16x16 .f32) (x4 : Vec Ideal S1x16 .f32) (y : S4000x16.Idx) :
    k2_pay2 (F := Ideal) x0 x1 x2 x3 x4 y = keptRows (R := 4000) (K := 32) (C := 16) x0 x1 x2 x3 x4 y := by
  unfold k2_pay2 keptRows Cert.Dense.lin
  refine congrArg₂ (· + ·) ?_ (bias16 x4 y)
  refine (Cert.Dense.matmul_zero_eq dot_S4000x16_S16x16_S4000x16_1_0_0_1_n_n rfl rfl d2b_l0 d2b_l1 d2b_r0 d2b_r1 none _ _ y).trans ?_
  exact Cert.Dense.mm_congr y y (fun k => pay_sent2 x0 x1 x2 (ix2 (y 0) k)) (fun k => transpose_ix2_apply _ _ k (y 1))

/-! ## The combining bodies -/

/-- The first layer's combining body stores the rectified sum of its two blocks. -/
theorem pay_relu (x0 x1 : Vec Ideal S4000x32 .f32) (y : S4000x32.Idx) :
    k1_pay1 (F := Ideal) x0 x1 y = reluSum (R := 4000) (C := 32) x0 x1 y := by
  unfold k1_pay1 reluSum
  show max (shapeCast S4000x32 x0 shapeCasts_S4000x32_S4000x32 y + shapeCast S4000x32 x1 shapeCasts_S4000x32_S4000x32 y) zeroW = _
  rw [shapeCast_self, shapeCast_self]

/-- The combining body of the second layer as a function of the sum z of its two blocks: z less its row maximum, less
    the logarithm of the row sum of the exponentials of that. -/
def lsmBlock (z : FVec Ideal S4000x16 .f32) : FVec Ideal S4000x16 .f32 :=
  subf
    (subf z (broadcastTo S4000x16 (shapeCast S4000x1 (multiReduction .maximumf [1] S4000 z 0xFF800000#32 reduces_S4000x16_S4000 (.inl rfl) rfl) shapeCasts_S4000_S4000x1) broadcasts_S4000x1_S4000x16))
    (broadcastTo S4000x16 (log (shapeCast S4000x1 (multiReduction .add [1] S4000
        (exp (subf z (broadcastTo S4000x16 (shapeCast S4000x1 (multiReduction .maximumf [1] S4000 z 0xFF800000#32 reduces_S4000x16_S4000 (.inl rfl) rfl) shapeCasts_S4000_S4000x1) broadcasts_S4000x1_S4000x16)))
        0x00000000#32 reduces_S4000x16_S4000 (.inl rfl) rfl) shapeCasts_S4000_S4000x1)) broadcasts_S4000x1_S4000x16)

/-- The body's stored value is that function of the sum of its two blocks. -/
theorem k3_pay1_eq (x0 x1 : Vec Ideal S4000x16 .f32) :
    k3_pay1 (F := Ideal) x0 x1
      = lsmBlock (addf (shapeCast S4000x16 x0 shapeCasts_S4000x16_S4000x16) (shapeCast S4000x16 x1 shapeCasts_S4000x16_S4000x16)) := rfl

/-- Row r of the block with the reduced axis's coordinate k put back is the entry (r, k). -/
theorem lift_row (p : Fin 4000) (k : Fin 16) : reduces_S4000x16_S4000.lift (ix1 p) k = ix2 p k :=
  funext fun a => Fin.ext (match a with | ⟨0, _⟩ => rfl | ⟨1, _⟩ => rfl)

/-- The lane maximum of a row: the fold of `max` from the accumulator's word over the row's entries. -/
theorem rowmax_eq (z : FVec Ideal S4000x16 .f32) (hφ : FKind.Formats .f32)
    (hacc : (0xFF800000#32 : BitVec 32) = FKind.maximumf.neutral .f32 hφ) (p : Fin 4000) :
    multiReduction .maximumf [1] S4000 z 0xFF800000#32 reduces_S4000x16_S4000 hφ hacc (ix1 p) = rowMax (R := 4000) (C := 16) z p := by
  refine (Ideal.multiReduction_maximumf_single z 0xFF800000#32 reduces_S4000x16_S4000 hφ hacc (ix1 p)).trans ?_
  unfold rowMax
  exact congrArg (fun f : Fin 16 → EReal => (Finset.univ : Finset (Fin 16)).fold max negInfW f)
    (funext fun k => congrArg z (lift_row p k))

/-- The lane sum of a row: the sum of the row's entries. -/
theorem rowsum_eq (w : FVec Ideal S4000x16 .f32) (hφ : FKind.Formats .f32)
    (hacc : (0x00000000#32 : BitVec 32) = FKind.add.neutral .f32 hφ) (p : Fin 4000) :
    multiReduction .add [1] S4000 w 0x00000000#32 reduces_S4000x16_S4000 hφ hacc (ix1 p) = ∑ k : Fin 16, w (ix2 p k) := by
  refine (Ideal.multiReduction_add_single w 0x00000000#32 reduces_S4000x16_S4000 hφ hacc (ix1 p)).trans ?_
  exact Finset.sum_congr rfl fun k _ => congrArg w (lift_row p k)

/-- A per-row value kept as a column and broadcast along the row reads, at (r, j), the value of row r. -/
theorem col_read (v : FVec Ideal S4000 .f32) (p : Fin 4000) (q : Fin 16) :
    broadcastTo S4000x16 (shapeCast S4000x1 v shapeCasts_S4000_S4000x1) broadcasts_S4000x1_S4000x16 (ix2 p q) = v (ix1 p) :=
  (broadcastTo_a1_ab_apply _ broadcasts_S4000x1_S4000x16 p q).trans (shapeCast_a_a1_apply v shapeCasts_S4000_S4000x1 p 0)

/-- … and the same with the logarithm taken on the column. -/
theorem col_read_log (v : FVec Ideal S4000 .f32) (p : Fin 4000) (q : Fin 16) :
    broadcastTo S4000x16 (log (shapeCast S4000x1 v shapeCasts_S4000_S4000x1)) broadcasts_S4000x1_S4000x16 (ix2 p q) = Ideal.log (v (ix1 p)) :=
  (broadcastTo_a1_ab_apply _ broadcasts_S4000x1_S4000x16 p q).trans (congrArg Ideal.log (shapeCast_a_a1_apply v shapeCasts_S4000_S4000x1 p 0))

/-- The combining body of the second layer, over the sum of its blocks, is the shifted log-softmax of the sum. -/
theorem lsmBlock_apply (z : FVec Ideal S4000x16 .f32) (p : Fin 4000) (q : Fin 16) :
    lsmBlock z (ix2 p q) = logSoftmax (R := 4000) (C := 16) z (ix2 p q) := by
  have hm : ∀ j : Fin 16, broadcastTo S4000x16 (shapeCast S4000x1 (multiReduction .maximumf [1] S4000 z 0xFF800000#32 reduces_S4000x16_S4000 (.inl rfl) rfl) shapeCasts_S4000_S4000x1) broadcasts_S4000x1_S4000x16 (ix2 p j) = rowMax (R := 4000) (C := 16) z p :=
    fun j => (col_read _ p j).trans (rowmax_eq z (.inl rfl) rfl p)
  unfold lsmBlock logSoftmax shifted
  refine congrArg₂ (· - ·) (congrArg (z (ix2 p q) - ·) (hm q)) ?_
  refine (col_read_log _ p q).trans (congrArg Ideal.log ?_)
  refine (rowsum_eq _ (.inl rfl) rfl p).trans (Finset.sum_congr rfl fun k _ => ?_)
  exact congrArg Ideal.exp (congrArg (z (ix2 p k) - ·) (hm k))

/-- The second layer's combining body stores the shifted log-softmax of the sum of its two blocks. -/
theorem pay_logsoftmax (x0 x1 : Vec Ideal S4000x16 .f32) (y : S4000x16.Idx) :
    k3_pay1 (F := Ideal) x0 x1 y = logSoftmax (R := 4000) (C := 16) (plus x0 x1) y := by
  obtain ⟨p, q, rfl⟩ : ∃ (p : Fin 4000) (q : Fin 16), y = ix2 p q := ⟨y 0, y 1, eq_ix2 y⟩
  have hz : addf (F := Ideal) (φ := .f32) (shapeCast S4000x16 x0 shapeCasts_S4000x16_S4000x16) (shapeCast S4000x16 x1 shapeCasts_S4000x16_S4000x16)
      = fun i => plus (R := 4000) (C := 16) x0 x1 i := by
    rw [shapeCast_self, shapeCast_self]; rfl
  rw [k3_pay1_eq, hz]
  exact lsmBlock_apply _ p q

end Cert.KernelIdeal.Bodies

end
-- ==== Proof.RegionLinear1.lean ====
/-
  The first layer's linear region, from blocks to the arrays.

  The region's grid has 25 points. At point t the input rows' window holds rows 4000·t … 4000·t + 3999 of the input array,
  all 256 columns, and each output window the same rows of its output array, all 32 columns; the two weight windows and the
  two bias windows hold their whole arrays at every point. The body's two stored values are the message rows and the own
  features of the blocks it loads, and an entry of either depends on the input only along its own row; so what point t
  writes back is block t of the message rows, and of the own features, of the input ARRAYS. Every row r of an output lies
  in the block of point r / 4000, so the blocks cover each output array.
-/
import proofs.«181623_j44555990728725_1_alg».proof.Proof.Gen.KernelIdeal.Frame
import proofs.«181623_j44555990728725_1_alg».proof.Proof.BodyValues

set_option maxRecDepth 16384

noncomputable section

namespace Cert.KernelIdeal.Linear1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Bodies Cert.GraphNet

variable (V : (c : Dev nD) → (b : Ref sig .tc) → Buf (Elt Ideal) ((c : Thread nD τ).loc b))

theorem hz : (![0, 0] : Fin 2 → Nat) = fun _ => 0 := funext fun a => by fin_cases a <;> rfl

/-! ## The printed index maps over the grid: the rows' windows at (t, 0), the weights' and biases' at (0, 0) -/

theorem idx_row0 : ∀ t : Fin cfg0.N, win0_0.index t (0 : Fin 2) = t.val ∧ win0_0.index t (1 : Fin 2) = 0 :=
  (by decide +kernel : ∀ t : Fin grid0.N, _)
theorem idx_whole1 : ∀ t : Fin cfg0.N, win0_1.index t (0 : Fin 2) = 0 ∧ win0_1.index t (1 : Fin 2) = 0 :=
  (by decide +kernel : ∀ t : Fin grid0.N, _)
theorem idx_whole2 : ∀ t : Fin cfg0.N, win0_2.index t (0 : Fin 2) = 0 ∧ win0_2.index t (1 : Fin 2) = 0 :=
  (by decide +kernel : ∀ t : Fin grid0.N, _)
theorem idx_whole3 : ∀ t : Fin cfg0.N, win0_3.index t (0 : Fin 2) = 0 ∧ win0_3.index t (1 : Fin 2) = 0 :=
  (by decide +kernel : ∀ t : Fin grid0.N, _)
theorem idx_whole4 : ∀ t : Fin cfg0.N, win0_4.index t (0 : Fin 2) = 0 ∧ win0_4.index t (1 : Fin 2) = 0 :=
  (by decide +kernel : ∀ t : Fin grid0.N, _)
theorem idx_row5 : ∀ t : Fin cfg0.N, win0_5.index t (0 : Fin 2) = t.val ∧ win0_5.index t (1 : Fin 2) = 0 :=
  (by decide +kernel : ∀ t : Fin grid0.N, _)
theorem idx_row6 : ∀ t : Fin cfg0.N, win0_6.index t (0 : Fin 2) = t.val ∧ win0_6.index t (1 : Fin 2) = 0 :=
  (by decide +kernel : ∀ t : Fin grid0.N, _)

/-! ## Where a block's entry lies in its array -/

/-- Entry y of the input rows' block at point t is row 4000·t + y₀, column y₁ of the input array. -/
theorem emb0 (t : Fin cfg0.N) (y : S4000x256.Idx) (i : S100000x256.Idx) (h0 : (i 0).val = t.val * 4000 + (y 0).val) (h1 : (i 1).val = (y 1).val) :
    ((cfg0.win 0).blk t).view.emb y = i := by
  obtain ⟨e0, e1⟩ := idx_row0 t
  funext a; apply Fin.ext
  match a with
  | ⟨0, _⟩ => show win0_0.index t (0 : Fin 2) * 4000 + 1 * (y 0).val = (i 0).val; omega
  | ⟨1, _⟩ => show win0_0.index t (1 : Fin 2) * 256 + 1 * (y 1).val = (i 1).val; omega
/-- A weight's or a bias's block is its whole array at every point. -/
theorem embW1 (t : Fin cfg0.N) (y : S32x256.Idx) : ((cfg0.win 1).blk t).view.emb y = y := by
  obtain ⟨e0, e1⟩ := idx_whole1 t
  funext a; apply Fin.ext
  match a with
  | ⟨0, _⟩ => show win0_1.index t (0 : Fin 2) * 32 + 1 * (y 0).val = (y 0).val; omega
  | ⟨1, _⟩ => show win0_1.index t (1 : Fin 2) * 256 + 1 * (y 1).val = (y 1).val; omega
theorem embW2 (t : Fin cfg0.N) (y : S1x32.Idx) : ((cfg0.win 2).blk t).view.emb y = y := by
  obtain ⟨e0, e1⟩ := idx_whole2 t
  funext a; apply Fin.ext
  match a with
  | ⟨0, _⟩ => show win0_2.index t (0 : Fin 2) * 1 + 1 * (y 0).val = (y 0).val; omega
  | ⟨1, _⟩ => show win0_2.index t (1 : Fin 2) * 32 + 1 * (y 1).val = (y 1).val; omega
theorem embW3 (t : Fin cfg0.N) (y : S32x32.Idx) : ((cfg0.win 3).blk t).view.emb y = y := by
  obtain ⟨e0, e1⟩ := idx_whole3 t
  funext a; apply Fin.ext
  match a with
  | ⟨0, _⟩ => show win0_3.index t (0 : Fin 2) * 32 + 1 * (y 0).val = (y 0).val; omega
  | ⟨1, _⟩ => show win0_3.index t (1 : Fin 2) * 32 + 1 * (y 1).val = (y 1).val; omega
theorem embW4 (t : Fin cfg0.N) (y : S1x32.Idx) : ((cfg0.win 4).blk t).view.emb y = y := by
  obtain ⟨e0, e1⟩ := idx_whole4 t
  funext a; apply Fin.ext
  match a with
  | ⟨0, _⟩ => show win0_4.index t (0 : Fin 2) * 1 + 1 * (y 0).val = (y 0).val; omega
  | ⟨1, _⟩ => show win0_4.index t (1 : Fin 2) * 32 + 1 * (y 1).val = (y 1).val; omega
/-- Entry y of an output's block at point t is row 4000·t + y₀, column y₁ of the output array. -/
theorem emb5_val (t : Fin cfg0.N) (y : S4000x32.Idx) :
    ((((cfg0.win 5).blk t).view.emb y) 0).val = t.val * 4000 + (y 0).val ∧ ((((cfg0.win 5).blk t).view.emb y) 1).val = (y 1).val := by
  obtain ⟨e0, e1⟩ := idx_row5 t
  constructor
  · show win0_5.index t (0 : Fin 2) * 4000 + 1 * (y 0).val = _; omega
  · show win0_5.index t (1 : Fin 2) * 32 + 1 * (y 1).val = _; omega
theorem emb6_val (t : Fin cfg0.N) (y : S4000x32.Idx) :
    ((((cfg0.win 6).blk t).view.emb y) 0).val = t.val * 4000 + (y 0).val ∧ ((((cfg0.win 6).blk t).view.emb y) 1).val = (y 1).val := by
  obtain ⟨e0, e1⟩ := idx_row6 t
  constructor
  · show win0_6.index t (0 : Fin 2) * 4000 + 1 * (y 0).val = _; omega
  · show win0_6.index t (1 : Fin 2) * 32 + 1 * (y 1).val = _; omega

/-! ## What a point writes back -/

/-- Point t writes back, to the first output, block t of the message rows of the input ARRAYS. -/
theorem flushed5_eq (c : Dev nD) (t : Fin cfg0.N) :
    (dat0 V c).flushed 5 t = ((cfg0.win 5).blk t).view.read (Elt Ideal)
      (sentRows (R := 100000) (K := 256) (C := 32) (V c main_arg0) (V c main_arg1) (V c main_v4)) := by
  show (cfg0.win 5).cut (grid0.coords t) ((dat0 V c).after 5 t) = _
  rw [after0_5]
  unfold out0_5
  rw [View.canon_unit_zero hz]
  simp only [View.ld_unit_zero (S := S4000x256) hz, View.ld_unit_zero (S := S32x256) hz, View.ld_unit_zero (S := S1x32) hz, View.ld_unit_zero (S := S32x32) hz]
  funext y
  refine (pay_sent1 (iblk0 V c 0 t) (iblk0 V c 1 t) (iblk0 V c 2 t) y).trans ?_
  obtain ⟨h0, h1⟩ := emb5_val t y
  exact sentRows_congr y (((cfg0.win 5).blk t).view.emb y) (Fin.ext h1.symm)
    (fun k => congrArg (V c main_arg0) (emb0 t (ix2 (y 0) k) (ix2 ((((cfg0.win 5).blk t).view.emb y) 0) k) h0 rfl))
    (funext fun z => congrArg (V c main_arg1) (embW1 t z))
    (funext fun z => congrArg (V c main_v4) (embW2 t z))

/-- … and, to the second output, block t of the own features of the input ARRAYS. -/
theorem flushed6_eq (c : Dev nD) (t : Fin cfg0.N) :
    (dat0 V c).flushed 6 t = ((cfg0.win 6).blk t).view.read (Elt Ideal)
      (keptRows (R := 100000) (K := 256) (C := 32) (V c main_arg0) (V c main_arg1) (V c main_v4) (V c main_arg3) (V c main_v5)) := by
  show (cfg0.win 6).cut (grid0.coords t) ((dat0 V c).after 6 t) = _
  rw [after0_6]
  unfold out0_6
  rw [View.canon_unit_zero hz]
  simp only [View.ld_unit_zero (S := S4000x256) hz, View.ld_unit_zero (S := S32x256) hz, View.ld_unit_zero (S := S1x32) hz, View.ld_unit_zero (S := S32x32) hz]
  funext y
  refine (pay_kept1 (iblk0 V c 0 t) (iblk0 V c 1 t) (iblk0 V c 2 t) (iblk0 V c 3 t) (iblk0 V c 4 t) y).trans ?_
  obtain ⟨h0, h1⟩ := emb6_val t y
  exact keptRows_congr y (((cfg0.win 6).blk t).view.emb y) (Fin.ext h1.symm)
    (fun k => congrArg (V c main_arg0) (emb0 t (ix2 (y 0) k) (ix2 ((((cfg0.win 6).blk t).view.emb y) 0) k) h0 rfl))
    (funext fun z => congrArg (V c main_arg1) (embW1 t z))
    (funext fun z => congrArg (V c main_v4) (embW2 t z))
    (funext fun z => congrArg (V c main_arg3) (embW3 t z))
    (funext fun z => congrArg (V c main_v5) (embW4 t z))

/-! ## The blocks cover the arrays -/

theorem mem_blk5 (t : Fin cfg0.N) (i : S100000x32.Idx) :
    i ∈ ((cfg0.win 5).blk t).view.set ↔ ∀ a : Fin 2, win0_5.index t a * S4000x32.size a ≤ (i a).val ∧ (i a).val < win0_5.index t a * S4000x32.size a + S4000x32.size a := by
  show i ∈ ((View.whole main_v6_0).slice (win0_5.rect t)).set ↔ _
  rw [View.set_slice_whole, Rect.mem_set_unit]
  exact Iff.rfl
theorem mem_blk6 (t : Fin cfg0.N) (i : S100000x32.Idx) :
    i ∈ ((cfg0.win 6).blk t).view.set ↔ ∀ a : Fin 2, win0_6.index t a * S4000x32.size a ≤ (i a).val ∧ (i a).val < win0_6.index t a * S4000x32.size a + S4000x32.size a := by
  show i ∈ ((View.whole main_v6_1).slice (win0_6.rect t)).set ↔ _
  rw [View.set_slice_whole, Rect.mem_set_unit]
  exact Iff.rfl
theorem cover5 (i : S100000x32.Idx) : ∃ t : Fin cfg0.N, (cfg0.win 5).flush t = true ∧ i ∈ ((cfg0.win 5).blk t).view.set := by
  have hi0 : (i 0).val < 100000 := (i 0).isLt
  have hi1 : (i 1).val < 32 := (i 1).isLt
  have hN : cfg0.N = 25 := N_0
  let t : Fin cfg0.N := ⟨(i 0).val / 4000, by rw [hN]; omega⟩
  obtain ⟨e0, e1⟩ := idx_row5 t
  have ht : t.val = (i 0).val / 4000 := rfl
  refine ⟨t, flush0_5 t, ?_⟩
  rw [mem_blk5]
  intro a
  match a with
  | ⟨0, _⟩ => show win0_5.index t (0 : Fin 2) * 4000 ≤ (i 0).val ∧ (i 0).val < win0_5.index t (0 : Fin 2) * 4000 + 4000; omega
  | ⟨1, _⟩ => show win0_5.index t (1 : Fin 2) * 32 ≤ (i 1).val ∧ (i 1).val < win0_5.index t (1 : Fin 2) * 32 + 32; omega
theorem cover6 (i : S100000x32.Idx) : ∃ t : Fin cfg0.N, (cfg0.win 6).flush t = true ∧ i ∈ ((cfg0.win 6).blk t).view.set := by
  have hi0 : (i 0).val < 100000 := (i 0).isLt
  have hi1 : (i 1).val < 32 := (i 1).isLt
  have hN : cfg0.N = 25 := N_0
  let t : Fin cfg0.N := ⟨(i 0).val / 4000, by rw [hN]; omega⟩
  obtain ⟨e0, e1⟩ := idx_row6 t
  have ht : t.val = (i 0).val / 4000 := rfl
  refine ⟨t, flush0_6 t, ?_⟩
  rw [mem_blk6]
  intro a
  match a with
  | ⟨0, _⟩ => show win0_6.index t (0 : Fin 2) * 4000 ≤ (i 0).val ∧ (i 0).val < win0_6.index t (0 : Fin 2) * 4000 + 4000; omega
  | ⟨1, _⟩ => show win0_6.index t (1 : Fin 2) * 32 ≤ (i 1).val ∧ (i 1).val < win0_6.index t (1 : Fin 2) * 32 + 32; omega

/-! ## The arrays after the region -/

/-- After the region its first output array holds the message rows of its input arrays as the region found them. -/
theorem sent_array (c : Dev nD) :
    (dat0 V c).arrAt 5 cfg0.N = sentRows (R := 100000) (K := 256) (C := 32) (V c main_arg0) (V c main_arg1) (V c main_v4) :=
  (dat0 V c).arrAt_eq_of_cover 5 _ (fun t _ => flushed5_eq V c t) cover5

/-- … and its second the own features. -/
theorem kept_array (c : Dev nD) :
    (dat0 V c).arrAt 6 cfg0.N = keptRows (R := 100000) (K := 256) (C := 32) (V c main_arg0) (V c main_arg1) (V c main_v4) (V c main_arg3) (V c main_v5) :=
  (dat0 V c).arrAt_eq_of_cover 6 _ (fun t _ => flushed6_eq V c t) cover6

end Cert.KernelIdeal.Linear1

end
-- ==== Proof.RegionRelu.lean ====
/-
  The first layer's combining region, from blocks to the array.

  The region's grid has 25 points; at point t each of its three windows holds rows 4000·t … 4000·t + 3999 of its array,
  all 32 columns. The body stores into the output's block the rectified sum of the two input blocks, entry by entry, so
  what point t writes back is block t of the rectified sum of the two input ARRAYS. Every row r of the output lies in the
  block of point r / 4000, so the blocks cover the array and after the region it is the rectified sum of the two input
  arrays as the region found them.
-/
import proofs.«181623_j44555990728725_1_alg».proof.Proof.Gen.KernelIdeal.Frame
import proofs.«181623_j44555990728725_1_alg».proof.Proof.BodyValues

set_option maxRecDepth 16384

noncomputable section

namespace Cert.KernelIdeal.Relu

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Bodies Cert.GraphNet

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: every window's block index at point t is (t, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- Where entry y of a window's block at point t lies in the window's array: row 4000·t + y₀, column y₁. -/
theorem emb0 (t : Fin cfg1.N) (y : S4000x32.Idx) (i : S100000x32.Idx) (h0 : (i 0).val = t.val * 4000 + (y 0).val) (h1 : (i 1).val = (y 1).val) :
    ((cfg1.win 0).blk t).view.emb y = i := by
  obtain ⟨e0, e1, -⟩ := idx_facts t
  funext a; apply Fin.ext
  match a with
  | ⟨0, _⟩ => show win1_0.index t (0 : Fin 2) * 4000 + 1 * (y 0).val = (i 0).val; omega
  | ⟨1, _⟩ => show win1_0.index t (1 : Fin 2) * 32 + 1 * (y 1).val = (i 1).val; omega
theorem emb1 (t : Fin cfg1.N) (y : S4000x32.Idx) (i : S100000x32.Idx) (h0 : (i 0).val = t.val * 4000 + (y 0).val) (h1 : (i 1).val = (y 1).val) :
    ((cfg1.win 1).blk t).view.emb y = i := by
  obtain ⟨-, -, e0, e1, -⟩ := idx_facts t
  funext a; apply Fin.ext
  match a with
  | ⟨0, _⟩ => show win1_1.index t (0 : Fin 2) * 4000 + 1 * (y 0).val = (i 0).val; omega
  | ⟨1, _⟩ => show win1_1.index t (1 : Fin 2) * 32 + 1 * (y 1).val = (i 1).val; omega
theorem emb2_val (t : Fin cfg1.N) (y : S4000x32.Idx) :
    ((((cfg1.win 2).blk t).view.emb y) 0).val = t.val * 4000 + (y 0).val ∧ ((((cfg1.win 2).blk t).view.emb y) 1).val = (y 1).val := by
  obtain ⟨-, -, -, -, e0, e1⟩ := idx_facts t
  constructor
  · show win1_2.index t (0 : Fin 2) * 4000 + 1 * (y 0).val = _; omega
  · show win1_2.index t (1 : Fin 2) * 32 + 1 * (y 1).val = _; omega

/-- What point t writes back is block t of the rectified sum of the two input arrays. -/
theorem flushed_eq (c : Dev nD) (t : Fin cfg1.N) :
    (dat1 V c).flushed 2 t = ((cfg1.win 2).blk t).view.read (Elt Ideal)
      (reluSum (R := 100000) (C := 32) (V c main_v6_1) (V c main_v16)) := by
  show (cfg1.win 2).cut (grid1.coords t) ((dat1 V c).after 2 t) = _
  rw [after1_2]
  unfold out1_2
  rw [View.canon_unit_zero hz]
  simp only [View.ld_unit_zero (S := S4000x32) hz]
  funext y
  refine (pay_relu (iblk1 V c 0 t) (iblk1 V c 1 t) y).trans ?_
  obtain ⟨h0, h1⟩ := emb2_val t y
  exact congrArg₂ (fun a b : EReal => max (a + b) zeroW)
    (congrArg (V c main_v6_1) (emb0 t y (((cfg1.win 2).blk t).view.emb y) h0 h1))
    (congrArg (V c main_v16) (emb1 t y (((cfg1.win 2).blk t).view.emb y) h0 h1))

/-- An index of the array is in point t's block iff each coordinate is in the block's range on its axis. -/
theorem mem_blk (t : Fin cfg1.N) (i : S100000x32.Idx) :
    i ∈ ((cfg1.win 2).blk t).view.set ↔ ∀ a : Fin 2, win1_2.index t a * S4000x32.size a ≤ (i a).val ∧ (i a).val < win1_2.index t a * S4000x32.size a + S4000x32.size a := by
  show i ∈ ((View.whole main_v17).slice (win1_2.rect t)).set ↔ _
  rw [View.set_slice_whole, Rect.mem_set_unit]
  exact Iff.rfl

/-- Every index of the output lies in the block of the point its row divided by 4000 names. -/
theorem cover (i : S100000x32.Idx) : ∃ t : Fin cfg1.N, (cfg1.win 2).flush t = true ∧ i ∈ ((cfg1.win 2).blk t).view.set := by
  have hi0 : (i 0).val < 100000 := (i 0).isLt
  have hi1 : (i 1).val < 32 := (i 1).isLt
  have hN : cfg1.N = 25 := N_1
  let t : Fin cfg1.N := ⟨(i 0).val / 4000, by rw [hN]; omega⟩
  obtain ⟨-, -, -, -, e0, e1⟩ := idx_facts t
  have ht : t.val = (i 0).val / 4000 := rfl
  refine ⟨t, flush1_2 t, ?_⟩
  rw [mem_blk]
  intro a
  match a with
  | ⟨0, _⟩ => show win1_2.index t (0 : Fin 2) * 4000 ≤ (i 0).val ∧ (i 0).val < win1_2.index t (0 : Fin 2) * 4000 + 4000; omega
  | ⟨1, _⟩ => show win1_2.index t (1 : Fin 2) * 32 ≤ (i 1).val ∧ (i 1).val < win1_2.index t (1 : Fin 2) * 32 + 32; omega

/-- After the region its output array is the rectified sum of its two input arrays as the region found them. -/
theorem out_array (c : Dev nD) :
    (dat1 V c).arrAt 2 cfg1.N = reluSum (R := 100000) (C := 32) (V c main_v6_1) (V c main_v16) :=
  (dat1 V c).arrAt_eq_of_cover 2 _ (fun t _ => flushed_eq V c t) cover

end Cert.KernelIdeal.Relu

end
-- ==== Proof.RegionLinear2.lean ====
/-
  The second layer's linear region, from blocks to the arrays.

  The region's grid has 25 points. At point t the input rows' window holds rows 4000·t … 4000·t + 3999 of the input array,
  all 32 columns, and each output window the same rows of its output array, all 16 columns; the two weight windows and the
  two bias windows hold their whole arrays at every point. The body's two stored values are the message rows and the own
  features of the blocks it loads, and an entry of either depends on the input only along its own row; so what point t
  writes back is block t of the message rows, and of the own features, of the input ARRAYS. Every row r of an output lies
  in the block of point r / 4000, so the blocks cover each output array.
-/
import proofs.«181623_j44555990728725_1_alg».proof.Proof.Gen.KernelIdeal.Frame
import proofs.«181623_j44555990728725_1_alg».proof.Proof.BodyValues

set_option maxRecDepth 16384

noncomputable section

namespace Cert.KernelIdeal.Linear2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Bodies Cert.GraphNet

variable (V : (c : Dev nD) → (b : Ref sig .tc) → Buf (Elt Ideal) ((c : Thread nD τ).loc b))

theorem hz : (![0, 0] : Fin 2 → Nat) = fun _ => 0 := funext fun a => by fin_cases a <;> rfl

/-! ## The printed index maps over the grid: the rows' windows at (t, 0), the weights' and biases' at (0, 0) -/

theorem idx_row0 : ∀ t : Fin cfg2.N, win2_0.index t (0 : Fin 2) = t.val ∧ win2_0.index t (1 : Fin 2) = 0 :=
  (by decide +kernel : ∀ t : Fin grid2.N, _)
theorem idx_whole1 : ∀ t : Fin cfg2.N, win2_1.index t (0 : Fin 2) = 0 ∧ win2_1.index t (1 : Fin 2) = 0 :=
  (by decide +kernel : ∀ t : Fin grid2.N, _)
theorem idx_whole2 : ∀ t : Fin cfg2.N, win2_2.index t (0 : Fin 2) = 0 ∧ win2_2.index t (1 : Fin 2) = 0 :=
  (by decide +kernel : ∀ t : Fin grid2.N, _)
theorem idx_whole3 : ∀ t : Fin cfg2.N, win2_3.index t (0 : Fin 2) = 0 ∧ win2_3.index t (1 : Fin 2) = 0 :=
  (by decide +kernel : ∀ t : Fin grid2.N, _)
theorem idx_whole4 : ∀ t : Fin cfg2.N, win2_4.index t (0 : Fin 2) = 0 ∧ win2_4.index t (1 : Fin 2) = 0 :=
  (by decide +kernel : ∀ t : Fin grid2.N, _)
theorem idx_row5 : ∀ t : Fin cfg2.N, win2_5.index t (0 : Fin 2) = t.val ∧ win2_5.index t (1 : Fin 2) = 0 :=
  (by decide +kernel : ∀ t : Fin grid2.N, _)
theorem idx_row6 : ∀ t : Fin cfg2.N, win2_6.index t (0 : Fin 2) = t.val ∧ win2_6.index t (1 : Fin 2) = 0 :=
  (by decide +kernel : ∀ t : Fin grid2.N, _)

/-! ## Where a block's entry lies in its array -/

/-- Entry y of the input rows' block at point t is row 4000·t + y₀, column y₁ of the input array. -/
theorem emb0 (t : Fin cfg2.N) (y : S4000x32.Idx) (i : S100000x32.Idx) (h0 : (i 0).val = t.val * 4000 + (y 0).val) (h1 : (i 1).val = (y 1).val) :
    ((cfg2.win 0).blk t).view.emb y = i := by
  obtain ⟨e0, e1⟩ := idx_row0 t
  funext a; apply Fin.ext
  match a with
  | ⟨0, _⟩ => show win2_0.index t (0 : Fin 2) * 4000 + 1 * (y 0).val = (i 0).val; omega
  | ⟨1, _⟩ => show win2_0.index t (1 : Fin 2) * 32 + 1 * (y 1).val = (i 1).val; omega
/-- A weight's or a bias's block is its whole array at every point. -/
theorem embW1 (t : Fin cfg2.N) (y : S16x32.Idx) : ((cfg2.win 1).blk t).view.emb y = y := by
  obtain ⟨e0, e1⟩ := idx_whole1 t
  funext a; apply Fin.ext
  match a with
  | ⟨0, _⟩ => show win2_1.index t (0 : Fin 2) * 16 + 1 * (y 0).val = (y 0).val; omega
  | ⟨1, _⟩ => show win2_1.index t (1 : Fin 2) * 32 + 1 * (y 1).val = (y 1).val; omega
theorem embW2 (t : Fin cfg2.N) (y : S1x16.Idx) : ((cfg2.win 2).blk t).view.emb y = y := by
  obtain ⟨e0, e1⟩ := idx_whole2 t
  funext a; apply Fin.ext
  match a with
  | ⟨0, _⟩ => show win2_2.index t (0 : Fin 2) * 1 + 1 * (y 0).val = (y 0).val; omega
  | ⟨1, _⟩ => show win2_2.index t (1 : Fin 2) * 16 + 1 * (y 1).val = (y 1).val; omega
theorem embW3 (t : Fin cfg2.N) (y : S16x16.Idx) : ((cfg2.win 3).blk t).view.emb y = y := by
  obtain ⟨e0, e1⟩ := idx_whole3 t
  funext a; apply Fin.ext
  match a with
  | ⟨0, _⟩ => show win2_3.index t (0 : Fin 2) * 16 + 1 * (y 0).val = (y 0).val; omega
  | ⟨1, _⟩ => show win2_3.index t (1 : Fin 2) * 16 + 1 * (y 1).val = (y 1).val; omega
theorem embW4 (t : Fin cfg2.N) (y : S1x16.Idx) : ((cfg2.win 4).blk t).view.emb y = y := by
  obtain ⟨e0, e1⟩ := idx_whole4 t
  funext a; apply Fin.ext
  match a with
  | ⟨0, _⟩ => show win2_4.index t (0 : Fin 2) * 1 + 1 * (y 0).val = (y 0).val; omega
  | ⟨1, _⟩ => show win2_4.index t (1 : Fin 2) * 16 + 1 * (y 1).val = (y 1).val; omega
/-- Entry y of an output's block at point t is row 4000·t + y₀, column y₁ of the output array. -/
theorem emb5_val (t : Fin cfg2.N) (y : S4000x16.Idx) :
    ((((cfg2.win 5).blk t).view.emb y) 0).val = t.val * 4000 + (y 0).val ∧ ((((cfg2.win 5).blk t).view.emb y) 1).val = (y 1).val := by
  obtain ⟨e0, e1⟩ := idx_row5 t
  constructor
  · show win2_5.index t (0 : Fin 2) * 4000 + 1 * (y 0).val = _; omega
  · show win2_5.index t (1 : Fin 2) * 16 + 1 * (y 1).val = _; omega
theorem emb6_val (t : Fin cfg2.N) (y : S4000x16.Idx) :
    ((((cfg2.win 6).blk t).view.emb y) 0).val = t.val * 4000 + (y 0).val ∧ ((((cfg2.win 6).blk t).view.emb y) 1).val = (y 1).val := by
  obtain ⟨e0, e1⟩ := idx_row6 t
  constructor
  · show win2_6.index t (0 : Fin 2) * 4000 + 1 * (y 0).val = _; omega
  · show win2_6.index t (1 : Fin 2) * 16 + 1 * (y 1).val = _; omega

/-! ## What a point writes back -/

/-- Point t writes back, to the first output, block t of the message rows of the input ARRAYS. -/
theorem flushed5_eq (c : Dev nD) (t : Fin cfg2.N) :
    (dat2 V c).flushed 5 t = ((cfg2.win 5).blk t).view.read (Elt Ideal)
      (sentRows (R := 100000) (K := 32) (C := 16) (V c main_v17) (V c main_arg5) (V c main_v18)) := by
  show (cfg2.win 5).cut (grid2.coords t) ((dat2 V c).after 5 t) = _
  rw [after2_5]
  unfold out2_5
  rw [View.canon_unit_zero hz]
  simp only [View.ld_unit_zero (S := S4000x32) hz, View.ld_unit_zero (S := S16x32) hz, View.ld_unit_zero (S := S1x16) hz, View.ld_unit_zero (S := S16x16) hz]
  funext y
  refine (pay_sent2 (iblk2 V c 0 t) (iblk2 V c 1 t) (iblk2 V c 2 t) y).trans ?_
  obtain ⟨h0, h1⟩ := emb5_val t y
  exact sentRows_congr y (((cfg2.win 5).blk t).view.emb y) (Fin.ext h1.symm)
    (fun k => congrArg (V c main_v17) (emb0 t (ix2 (y 0) k) (ix2 ((((cfg2.win 5).blk t).view.emb y) 0) k) h0 rfl))
    (funext fun z => congrArg (V c main_arg5) (embW1 t z))
    (funext fun z => congrArg (V c main_v18) (embW2 t z))

/-- … and, to the second output, block t of the own features of the input ARRAYS. -/
theorem flushed6_eq (c : Dev nD) (t : Fin cfg2.N) :
    (dat2 V c).flushed 6 t = ((cfg2.win 6).blk t).view.read (Elt Ideal)
      (keptRows (R := 100000) (K := 32) (C := 16) (V c main_v17) (V c main_arg5) (V c main_v18) (V c main_arg7) (V c main_v19)) := by
  show (cfg2.win 6).cut (grid2.coords t) ((dat2 V c).after 6 t) = _
  rw [after2_6]
  unfold out2_6
  rw [View.canon_unit_zero hz]
  simp only [View.ld_unit_zero (S := S4000x32) hz, View.ld_unit_zero (S := S16x32) hz, View.ld_unit_zero (S := S1x16) hz, View.ld_unit_zero (S := S16x16) hz]
  funext y
  refine (pay_kept2 (iblk2 V c 0 t) (iblk2 V c 1 t) (iblk2 V c 2 t) (iblk2 V c 3 t) (iblk2 V c 4 t) y).trans ?_
  obtain ⟨h0, h1⟩ := emb6_val t y
  exact keptRows_congr y (((cfg2.win 6).blk t).view.emb y) (Fin.ext h1.symm)
    (fun k => congrArg (V c main_v17) (emb0 t (ix2 (y 0) k) (ix2 ((((cfg2.win 6).blk t).view.emb y) 0) k) h0 rfl))
    (funext fun z => congrArg (V c main_arg5) (embW1 t z))
    (funext fun z => congrArg (V c main_v18) (embW2 t z))
    (funext fun z => congrArg (V c main_arg7) (embW3 t z))
    (funext fun z => congrArg (V c main_v19) (embW4 t z))

/-! ## The blocks cover the arrays -/

theorem mem_blk5 (t : Fin cfg2.N) (i : S100000x16.Idx) :
    i ∈ ((cfg2.win 5).blk t).view.set ↔ ∀ a : Fin 2, win2_5.index t a * S4000x16.size a ≤ (i a).val ∧ (i a).val < win2_5.index t a * S4000x16.size a + S4000x16.size a := by
  show i ∈ ((View.whole main_v20_0).slice (win2_5.rect t)).set ↔ _
  rw [View.set_slice_whole, Rect.mem_set_unit]
  exact Iff.rfl
theorem mem_blk6 (t : Fin cfg2.N) (i : S100000x16.Idx) :
    i ∈ ((cfg2.win 6).blk t).view.set ↔ ∀ a : Fin 2, win2_6.index t a * S4000x16.size a ≤ (i a).val ∧ (i a).val < win2_6.index t a * S4000x16.size a + S4000x16.size a := by
  show i ∈ ((View.whole main_v20_1).slice (win2_6.rect t)).set ↔ _
  rw [View.set_slice_whole, Rect.mem_set_unit]
  exact Iff.rfl
theorem cover5 (i : S100000x16.Idx) : ∃ t : Fin cfg2.N, (cfg2.win 5).flush t = true ∧ i ∈ ((cfg2.win 5).blk t).view.set := by
  have hi0 : (i 0).val < 100000 := (i 0).isLt
  have hi1 : (i 1).val < 16 := (i 1).isLt
  have hN : cfg2.N = 25 := N_2
  let t : Fin cfg2.N := ⟨(i 0).val / 4000, by rw [hN]; omega⟩
  obtain ⟨e0, e1⟩ := idx_row5 t
  have ht : t.val = (i 0).val / 4000 := rfl
  refine ⟨t, flush2_5 t, ?_⟩
  rw [mem_blk5]
  intro a
  match a with
  | ⟨0, _⟩ => show win2_5.index t (0 : Fin 2) * 4000 ≤ (i 0).val ∧ (i 0).val < win2_5.index t (0 : Fin 2) * 4000 + 4000; omega
  | ⟨1, _⟩ => show win2_5.index t (1 : Fin 2) * 16 ≤ (i 1).val ∧ (i 1).val < win2_5.index t (1 : Fin 2) * 16 + 16; omega
theorem cover6 (i : S100000x16.Idx) : ∃ t : Fin cfg2.N, (cfg2.win 6).flush t = true ∧ i ∈ ((cfg2.win 6).blk t).view.set := by
  have hi0 : (i 0).val < 100000 := (i 0).isLt
  have hi1 : (i 1).val < 16 := (i 1).isLt
  have hN : cfg2.N = 25 := N_2
  let t : Fin cfg2.N := ⟨(i 0).val / 4000, by rw [hN]; omega⟩
  obtain ⟨e0, e1⟩ := idx_row6 t
  have ht : t.val = (i 0).val / 4000 := rfl
  refine ⟨t, flush2_6 t, ?_⟩
  rw [mem_blk6]
  intro a
  match a with
  | ⟨0, _⟩ => show win2_6.index t (0 : Fin 2) * 4000 ≤ (i 0).val ∧ (i 0).val < win2_6.index t (0 : Fin 2) * 4000 + 4000; omega
  | ⟨1, _⟩ => show win2_6.index t (1 : Fin 2) * 16 ≤ (i 1).val ∧ (i 1).val < win2_6.index t (1 : Fin 2) * 16 + 16; omega

/-! ## The arrays after the region -/

/-- After the region its first output array holds the message rows of its input arrays as the region found them. -/
theorem sent_array (c : Dev nD) :
    (dat2 V c).arrAt 5 cfg2.N = sentRows (R := 100000) (K := 32) (C := 16) (V c main_v17) (V c main_arg5) (V c main_v18) :=
  (dat2 V c).arrAt_eq_of_cover 5 _ (fun t _ => flushed5_eq V c t) cover5

/-- … and its second the own features. -/
theorem kept_array (c : Dev nD) :
    (dat2 V c).arrAt 6 cfg2.N = keptRows (R := 100000) (K := 32) (C := 16) (V c main_v17) (V c main_arg5) (V c main_v18) (V c main_arg7) (V c main_v19) :=
  (dat2 V c).arrAt_eq_of_cover 6 _ (fun t _ => flushed6_eq V c t) cover6

end Cert.KernelIdeal.Linear2

end
-- ==== Proof.RegionLogSoftmax.lean ====
/-
  The second layer's combining region, from blocks to the array.

  The region's grid has 25 points; at point t each of its three windows holds rows 4000·t … 4000·t + 3999 of its array,
  all 16 columns. The body stores into the output's block the shifted log-softmax of the sum of the two input blocks, and
  an entry of that depends on the sum only along its own row; so what point t writes back is block t of the log-softmax of
  the sum of the two input ARRAYS. Every row r of the output lies in the block of point r / 4000, so the blocks cover the
  array.
-/
import proofs.«181623_j44555990728725_1_alg».proof.Proof.Gen.KernelIdeal.Frame
import proofs.«181623_j44555990728725_1_alg».proof.Proof.BodyValues

set_option maxRecDepth 16384

noncomputable section

namespace Cert.KernelIdeal.LogSoftmax

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Bodies Cert.GraphNet

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: every window's block index at point t is (t, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- Where entry y of a window's block at point t lies in the window's array: row 4000·t + y₀, column y₁. -/
theorem emb0 (t : Fin cfg3.N) (y : S4000x16.Idx) (i : S100000x16.Idx) (h0 : (i 0).val = t.val * 4000 + (y 0).val) (h1 : (i 1).val = (y 1).val) :
    ((cfg3.win 0).blk t).view.emb y = i := by
  obtain ⟨e0, e1, -⟩ := idx_facts t
  funext a; apply Fin.ext
  match a with
  | ⟨0, _⟩ => show win3_0.index t (0 : Fin 2) * 4000 + 1 * (y 0).val = (i 0).val; omega
  | ⟨1, _⟩ => show win3_0.index t (1 : Fin 2) * 16 + 1 * (y 1).val = (i 1).val; omega
theorem emb1 (t : Fin cfg3.N) (y : S4000x16.Idx) (i : S100000x16.Idx) (h0 : (i 0).val = t.val * 4000 + (y 0).val) (h1 : (i 1).val = (y 1).val) :
    ((cfg3.win 1).blk t).view.emb y = i := by
  obtain ⟨-, -, e0, e1, -⟩ := idx_facts t
  funext a; apply Fin.ext
  match a with
  | ⟨0, _⟩ => show win3_1.index t (0 : Fin 2) * 4000 + 1 * (y 0).val = (i 0).val; omega
  | ⟨1, _⟩ => show win3_1.index t (1 : Fin 2) * 16 + 1 * (y 1).val = (i 1).val; omega
theorem emb2_val (t : Fin cfg3.N) (y : S4000x16.Idx) :
    ((((cfg3.win 2).blk t).view.emb y) 0).val = t.val * 4000 + (y 0).val ∧ ((((cfg3.win 2).blk t).view.emb y) 1).val = (y 1).val := by
  obtain ⟨-, -, -, -, e0, e1⟩ := idx_facts t
  constructor
  · show win3_2.index t (0 : Fin 2) * 4000 + 1 * (y 0).val = _; omega
  · show win3_2.index t (1 : Fin 2) * 16 + 1 * (y 1).val = _; omega

/-- What point t writes back is block t of the log-softmax of the sum of the two input arrays. -/
theorem flushed_eq (c : Dev nD) (t : Fin cfg3.N) :
    (dat3 V c).flushed 2 t = ((cfg3.win 2).blk t).view.read (Elt Ideal)
      (logSoftmax (R := 100000) (C := 16) (plus (V c main_v20_1) (V c main_v30))) := by
  show (cfg3.win 2).cut (grid3.coords t) ((dat3 V c).after 2 t) = _
  rw [after3_2]
  unfold out3_2
  rw [View.canon_unit_zero hz]
  simp only [View.ld_unit_zero (S := S4000x16) hz]
  funext y
  refine (pay_logsoftmax (iblk3 V c 0 t) (iblk3 V c 1 t) y).trans ?_
  obtain ⟨h0, h1⟩ := emb2_val t y
  refine logSoftmax_congr2 y (((cfg3.win 2).blk t).view.emb y) (Fin.ext h1.symm) (fun k => ?_)
  exact congrArg₂ (fun a b : EReal => a + b)
    (congrArg (V c main_v20_1) (emb0 t (ix2 (y 0) k) (ix2 ((((cfg3.win 2).blk t).view.emb y) 0) k) h0 rfl))
    (congrArg (V c main_v30) (emb1 t (ix2 (y 0) k) (ix2 ((((cfg3.win 2).blk t).view.emb y) 0) k) h0 rfl))

/-- An index of the array is in point t's block iff each coordinate is in the block's range on its axis. -/
theorem mem_blk (t : Fin cfg3.N) (i : S100000x16.Idx) :
    i ∈ ((cfg3.win 2).blk t).view.set ↔ ∀ a : Fin 2, win3_2.index t a * S4000x16.size a ≤ (i a).val ∧ (i a).val < win3_2.index t a * S4000x16.size a + S4000x16.size a := by
  show i ∈ ((View.whole main_v31).slice (win3_2.rect t)).set ↔ _
  rw [View.set_slice_whole, Rect.mem_set_unit]
  exact Iff.rfl

/-- Every index of the output lies in the block of the point its row divided by 4000 names. -/
theorem cover (i : S100000x16.Idx) : ∃ t : Fin cfg3.N, (cfg3.win 2).flush t = true ∧ i ∈ ((cfg3.win 2).blk t).view.set := by
  have hi0 : (i 0).val < 100000 := (i 0).isLt
  have hi1 : (i 1).val < 16 := (i 1).isLt
  have hN : cfg3.N = 25 := N_3
  let t : Fin cfg3.N := ⟨(i 0).val / 4000, by rw [hN]; omega⟩
  obtain ⟨-, -, -, -, e0, e1⟩ := idx_facts t
  have ht : t.val = (i 0).val / 4000 := rfl
  refine ⟨t, flush3_2 t, ?_⟩
  rw [mem_blk]
  intro a
  match a with
  | ⟨0, _⟩ => show win3_2.index t (0 : Fin 2) * 4000 ≤ (i 0).val ∧ (i 0).val < win3_2.index t (0 : Fin 2) * 4000 + 4000; omega
  | ⟨1, _⟩ => show win3_2.index t (1 : Fin 2) * 16 ≤ (i 1).val ∧ (i 1).val < win3_2.index t (1 : Fin 2) * 16 + 16; omega

/-- After the region its output array is the log-softmax of the sum of its two input arrays as the region found them. -/
theorem out_array (c : Dev nD) :
    (dat3 V c).arrAt 2 cfg3.N = logSoftmax (R := 100000) (C := 16) (plus (V c main_v20_1) (V c main_v30)) :=
  (dat3 V c).arrAt_eq_of_cover 2 _ (fun t _ => flushed_eq V c t) cover

end Cert.KernelIdeal.LogSoftmax

end
-- ==== Proof.Network.lean ====
/-
  The whole network as one function of its arguments.

  Two graph layers. The first sends the message rows h₁ = X · Wa₁ᵀ + ba₁, keeps f₁ = h₁ · Wb₁ᵀ + bb₁, and ends in the
  rectified sum r = max (f₁ + agg₁ h₁) 0. The second does the same from r at its own widths and ends in the row-wise
  log-softmax of f₂ + agg₂ h₂. A bias vector enters a layer as the one row every row of the product is shifted by. The two
  aggregations (sum over the edges into a node of the message of the edge's source) are the same host operations in both
  programs and are parameters here.
-/
import proofs.«181623_j44555990728725_1_alg».proof.Proof.Spec

noncomputable section

namespace Cert.GraphNet

open Idealize.ShloMosaic Idealize.ShloMosaic.ValueIdx

/-- A length-C vector of extended reals. -/
abbrev Vec1 (n : Nat) : Type := (⟨1, ![n]⟩ : Shape).Idx → EReal

/-- The network's result from the node features, the four weight matrices and the four bias vectors. -/
def network (agg1 : Mat 100000 32 → Mat 100000 32) (agg2 : Mat 100000 16 → Mat 100000 16)
    (x : Mat 100000 256) (wa1 : Mat 32 256) (ba1 : Vec1 32) (wb1 : Mat 32 32) (bb1 : Vec1 32)
    (wa2 : Mat 16 32) (ba2 : Vec1 16) (wb2 : Mat 16 16) (bb2 : Vec1 16) : Mat 100000 16 :=
  logSoftmax (plus
    (keptRows (reluSum (keptRows x wa1 (Cert.Dense.row ba1) wb1 (Cert.Dense.row bb1)) (agg1 (sentRows x wa1 (Cert.Dense.row ba1))))
      wa2 (Cert.Dense.row ba2) wb2 (Cert.Dense.row bb2))
    (agg2 (sentRows (reluSum (keptRows x wa1 (Cert.Dense.row ba1) wb1 (Cert.Dense.row bb1)) (agg1 (sentRows x wa1 (Cert.Dense.row ba1))))
      wa2 (Cert.Dense.row ba2))))

end Cert.GraphNet

end
-- ==== Proof.KernelValue.lean ====
/-
  The idealized kernel's result as one function of its arguments.

  The run threads a valuation of the buffers through four stretches of host operations and four regions. Read backwards
  from the result: the last region leaves the log-softmax of the sum of its two input arrays; those were left by the
  second linear region (the own features) and by the last stretch (the aggregation of that region's message rows); the
  second linear region read the rectified sum the first combining region left, and so on down to the launch memory. A
  buffer no operation of a stretch writes, and no region has as an output, holds after it what it held before it. The bias
  vectors reach the linear regions reshaped to one row, which at an entry is the vector's entry of that column.
-/
import proofs.«181623_j44555990728725_1_alg».proof.Proof.Gen.KernelIdeal.Frame
import proofs.«181623_j44555990728725_1_alg».proof.Proof.RegionLinear1
import proofs.«181623_j44555990728725_1_alg».proof.Proof.RegionRelu
import proofs.«181623_j44555990728725_1_alg».proof.Proof.RegionLinear2
import proofs.«181623_j44555990728725_1_alg».proof.Proof.RegionLogSoftmax
import proofs.«181623_j44555990728725_1_alg».proof.Proof.Network
import Idealize.ShloMosaic.Lib.StableHlo.Run
import Idealize.ShloMosaic.Lib.ValueLayout

set_option maxRecDepth 16384

noncomputable section

namespace Cert.KernelIdeal.Net

open Idealize.ShloMosaic Idealize.ShloMosaic.TcCoe Idealize.ShloMosaic.ValueIdx Idealize.SL.Sem Idealize.ShloMosaic.StableHlo
open Cert.KernelIdeal Cert.KernelIdeal.Gen Cert.GraphNet

/-! ## The host operations between the regions, as functions -/

/-- The edges' source nodes and destination nodes: the two rows of the edge array. -/
def srcIdx (e : (⟨S2x1600000, .i32⟩ : BufTy).Contents (Elt Ideal)) : (⟨S1600000, .i32⟩ : BufTy).Contents (Elt Ideal) :=
  shapeCast S1600000 (extractStridedSlice S1x1600000 ![0, 0] e slices_S2x1600000_S1x1600000_0_0) shapeCasts_S1x1600000_S1600000
def dstIdx (e : (⟨S2x1600000, .i32⟩ : BufTy).Contents (Elt Ideal)) : (⟨S1600000, .i32⟩ : BufTy).Contents (Elt Ideal) :=
  shapeCast S1600000 (extractStridedSlice S1x1600000 ![1, 0] e slices_S2x1600000_S1x1600000_1_0) shapeCasts_S1x1600000_S1600000

/-- The aggregation of the first layer's message rows: every edge's source row (a negative source counted from the end)
    gathered, and accumulated into the row of the edge's destination, from zero. -/
def agg32 (src dst : (⟨S1600000, .i32⟩ : BufTy).Contents (Elt Ideal)) (H : (⟨S100000x32, .f32⟩ : BufTy).Contents (Elt Ideal)) :
    (⟨S100000x32, .f32⟩ : BufTy).Contents (Elt Ideal) :=
  Host.scatterAdd (F := Ideal) scatter_S100000x32_S1600000x1_S1600000x32_1_0_0_1
    (broadcastInDim S100000x32 ![] bcast_S_S100000x32 (constant (F := Ideal) S_ .f32 0x00000000#32))
    (broadcastInDim S1600000x1 ![0] bcast_S1600000_S1600000x1_0 dst)
    (Host.gather gather_S100000x32_S1600000x1_S1600000x32_1_0_n_n_0_1_132 H
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The same for the second layer's message rows. -/
def agg16 (src dst : (⟨S1600000, .i32⟩ : BufTy).Contents (Elt Ideal)) (H : (⟨S100000x16, .f32⟩ : BufTy).Contents (Elt Ideal)) :
    (⟨S100000x16, .f32⟩ : BufTy).Contents (Elt Ideal) :=
  Host.scatterAdd (F := Ideal) scatter_S100000x16_S1600000x1_S1600000x16_1_0_0_1
    (broadcastInDim S100000x16 ![] bcast_S_S100000x16 (constant (F := Ideal) S_ .f32 0x00000000#32))
    (broadcastInDim S1600000x1 ![0] bcast_S1600000_S1600000x1_0 dst)
    (Host.gather gather_S100000x16_S1600000x1_S1600000x16_1_0_n_n_0_1_116 H
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

variable (m : (ℓ : Loc nD τ sig) → Buf (Elt Ideal) ℓ) (ρ : Dev nD → PrngReg) (c : Dev nD)

/-- A stretch of host operations read at one buffer: each operation's result at its own buffer, what was there at any other. -/
macro "read_host" : tactic =>
  `(tactic| (dsimp only [W1, W3, W5, W7, hostOps0, hostOps1, hostOps2, hostOps3]; after_results))

/-! ## After the first stretch: the arguments untouched, the biases reshaped, the edge rows split -/

theorem W1_arg0 : W1 m ρ c (Proc.devRef .tc main_arg0) = (m ((c : Thread nD τ).loc main_arg0)) := by
  read_host <;> rfl
theorem W1_arg1 : W1 m ρ c (Proc.devRef .tc main_arg1) = (m ((c : Thread nD τ).loc main_arg1)) := by
  read_host <;> rfl
theorem W1_arg3 : W1 m ρ c (Proc.devRef .tc main_arg3) = (m ((c : Thread nD τ).loc main_arg3)) := by
  read_host <;> rfl
theorem W1_arg5 : W1 m ρ c (Proc.devRef .tc main_arg5) = (m ((c : Thread nD τ).loc main_arg5)) := by
  read_host <;> rfl
theorem W1_arg6 : W1 m ρ c (Proc.devRef .tc main_arg6) = (m ((c : Thread nD τ).loc main_arg6)) := by
  read_host <;> rfl
theorem W1_arg7 : W1 m ρ c (Proc.devRef .tc main_arg7) = (m ((c : Thread nD τ).loc main_arg7)) := by
  read_host <;> rfl
theorem W1_arg8 : W1 m ρ c (Proc.devRef .tc main_arg8) = (m ((c : Thread nD τ).loc main_arg8)) := by
  read_host <;> rfl
theorem W1_v4 : W1 m ρ c (Proc.devRef .tc main_v4) = (shapeCast S1x32 (m ((c : Thread nD τ).loc main_arg2)) shapeCasts_S32_S1x32) := by
  read_host <;> rfl
theorem W1_v5 : W1 m ρ c (Proc.devRef .tc main_v5) = (shapeCast S1x32 (m ((c : Thread nD τ).loc main_arg4)) shapeCasts_S32_S1x32) := by
  read_host <;> rfl
theorem W1_v1 : W1 m ρ c (Proc.devRef .tc main_v1) = srcIdx (m ((c : Thread nD τ).loc main_arg9)) := by
  read_host <;> rfl
theorem W1_v3 : W1 m ρ c (Proc.devRef .tc main_v3) = dstIdx (m ((c : Thread nD τ).loc main_arg9)) := by
  read_host <;> rfl

/-! ## After the first linear region -/

theorem W2_v6_0 : W2 m ρ c (Proc.devRef .tc main_v6_0) = (sentRows (R := 100000) (K := 256) (C := 32) (m ((c : Thread nD τ).loc main_arg0)) (m ((c : Thread nD τ).loc main_arg1)) (shapeCast S1x32 (m ((c : Thread nD τ).loc main_arg2)) shapeCasts_S32_S1x32)) := by
  refine (W2_arr m ρ c 5).trans ((Linear1.sent_array (V1 m ρ) c).trans ?_)
  show sentRows (R := 100000) (K := 256) (C := 32) (W1 m ρ c (Proc.devRef .tc main_arg0)) (W1 m ρ c (Proc.devRef .tc main_arg1)) (W1 m ρ c (Proc.devRef .tc main_v4)) = _
  rw [W1_arg0, W1_arg1, W1_v4]
theorem W2_v6_1 : W2 m ρ c (Proc.devRef .tc main_v6_1) = (keptRows (R := 100000) (K := 256) (C := 32) (m ((c : Thread nD τ).loc main_arg0)) (m ((c : Thread nD τ).loc main_arg1)) (shapeCast S1x32 (m ((c : Thread nD τ).loc main_arg2)) shapeCasts_S32_S1x32) (m ((c : Thread nD τ).loc main_arg3)) (shapeCast S1x32 (m ((c : Thread nD τ).loc main_arg4)) shapeCasts_S32_S1x32)) := by
  refine (W2_arr m ρ c 6).trans ((Linear1.kept_array (V1 m ρ) c).trans ?_)
  show keptRows (R := 100000) (K := 256) (C := 32) (W1 m ρ c (Proc.devRef .tc main_arg0)) (W1 m ρ c (Proc.devRef .tc main_arg1)) (W1 m ρ c (Proc.devRef .tc main_v4)) (W1 m ρ c (Proc.devRef .tc main_arg3)) (W1 m ρ c (Proc.devRef .tc main_v5)) = _
  rw [W1_arg0, W1_arg1, W1_v4, W1_arg3, W1_v5]
theorem W2_v1 : W2 m ρ c (Proc.devRef .tc main_v1) = srcIdx (m ((c : Thread nD τ).loc main_arg9)) :=
  (W2_of_ne m ρ c main_v1 (by decide)).trans (W1_v1 m ρ c)
theorem W2_v3 : W2 m ρ c (Proc.devRef .tc main_v3) = dstIdx (m ((c : Thread nD τ).loc main_arg9)) :=
  (W2_of_ne m ρ c main_v3 (by decide)).trans (W1_v3 m ρ c)
theorem W2_arg5 : W2 m ρ c (Proc.devRef .tc main_arg5) = (m ((c : Thread nD τ).loc main_arg5)) :=
  (W2_of_ne m ρ c main_arg5 (by decide)).trans (W1_arg5 m ρ c)
theorem W2_arg6 : W2 m ρ c (Proc.devRef .tc main_arg6) = (m ((c : Thread nD τ).loc main_arg6)) :=
  (W2_of_ne m ρ c main_arg6 (by decide)).trans (W1_arg6 m ρ c)
theorem W2_arg7 : W2 m ρ c (Proc.devRef .tc main_arg7) = (m ((c : Thread nD τ).loc main_arg7)) :=
  (W2_of_ne m ρ c main_arg7 (by decide)).trans (W1_arg7 m ρ c)
theorem W2_arg8 : W2 m ρ c (Proc.devRef .tc main_arg8) = (m ((c : Thread nD τ).loc main_arg8)) :=
  (W2_of_ne m ρ c main_arg8 (by decide)).trans (W1_arg8 m ρ c)

/-! ## After the second stretch: the first aggregation -/

theorem W3_v6_1 : W3 m ρ c (Proc.devRef .tc main_v6_1) = (keptRows (R := 100000) (K := 256) (C := 32) (m ((c : Thread nD τ).loc main_arg0)) (m ((c : Thread nD τ).loc main_arg1)) (shapeCast S1x32 (m ((c : Thread nD τ).loc main_arg2)) shapeCasts_S32_S1x32) (m ((c : Thread nD τ).loc main_arg3)) (shapeCast S1x32 (m ((c : Thread nD τ).loc main_arg4)) shapeCasts_S32_S1x32)) := by
  read_host
  exact W2_v6_1 m ρ c
theorem W3_v16 : W3 m ρ c (Proc.devRef .tc main_v16) = (agg32 (srcIdx (m ((c : Thread nD τ).loc main_arg9))) (dstIdx (m ((c : Thread nD τ).loc main_arg9))) (sentRows (R := 100000) (K := 256) (C := 32) (m ((c : Thread nD τ).loc main_arg0)) (m ((c : Thread nD τ).loc main_arg1)) (shapeCast S1x32 (m ((c : Thread nD τ).loc main_arg2)) shapeCasts_S32_S1x32))) := by
  read_host
  rw [W2_v1, W2_v3, W2_v6_0]
  unfold agg32
  with_reducible rfl
theorem W3_v1 : W3 m ρ c (Proc.devRef .tc main_v1) = srcIdx (m ((c : Thread nD τ).loc main_arg9)) := by
  read_host
  exact W2_v1 m ρ c
theorem W3_v3 : W3 m ρ c (Proc.devRef .tc main_v3) = dstIdx (m ((c : Thread nD τ).loc main_arg9)) := by
  read_host
  exact W2_v3 m ρ c
theorem W3_arg5 : W3 m ρ c (Proc.devRef .tc main_arg5) = (m ((c : Thread nD τ).loc main_arg5)) := by
  read_host
  exact W2_arg5 m ρ c
theorem W3_arg6 : W3 m ρ c (Proc.devRef .tc main_arg6) = (m ((c : Thread nD τ).loc main_arg6)) := by
  read_host
  exact W2_arg6 m ρ c
theorem W3_arg7 : W3 m ρ c (Proc.devRef .tc main_arg7) = (m ((c : Thread nD τ).loc main_arg7)) := by
  read_host
  exact W2_arg7 m ρ c
theorem W3_arg8 : W3 m ρ c (Proc.devRef .tc main_arg8) = (m ((c : Thread nD τ).loc main_arg8)) := by
  read_host
  exact W2_arg8 m ρ c

/-! ## After the first combining region -/

theorem W4_v17 : W4 m ρ c (Proc.devRef .tc main_v17) = (reluSum (R := 100000) (C := 32) (keptRows (R := 100000) (K := 256) (C := 32) (m ((c : Thread nD τ).loc main_arg0)) (m ((c : Thread nD τ).loc main_arg1)) (shapeCast S1x32 (m ((c : Thread nD τ).loc main_arg2)) shapeCasts_S32_S1x32) (m ((c : Thread nD τ).loc main_arg3)) (shapeCast S1x32 (m ((c : Thread nD τ).loc main_arg4)) shapeCasts_S32_S1x32)) (agg32 (srcIdx (m ((c : Thread nD τ).loc main_arg9))) (dstIdx (m ((c : Thread nD τ).loc main_arg9))) (sentRows (R := 100000) (K := 256) (C := 32) (m ((c : Thread nD τ).loc main_arg0)) (m ((c : Thread nD τ).loc main_arg1)) (shapeCast S1x32 (m ((c : Thread nD τ).loc main_arg2)) shapeCasts_S32_S1x32)))) := by
  refine (W4_arr m ρ c 2).trans ((Relu.out_array (V3 m ρ) c).trans ?_)
  show reluSum (R := 100000) (C := 32) (W3 m ρ c (Proc.devRef .tc main_v6_1)) (W3 m ρ c (Proc.devRef .tc main_v16)) = _
  rw [W3_v6_1, W3_v16]
theorem W4_v1 : W4 m ρ c (Proc.devRef .tc main_v1) = srcIdx (m ((c : Thread nD τ).loc main_arg9)) :=
  (W4_of_ne m ρ c main_v1 (by decide)).trans (W3_v1 m ρ c)
theorem W4_v3 : W4 m ρ c (Proc.devRef .tc main_v3) = dstIdx (m ((c : Thread nD τ).loc main_arg9)) :=
  (W4_of_ne m ρ c main_v3 (by decide)).trans (W3_v3 m ρ c)
theorem W4_arg5 : W4 m ρ c (Proc.devRef .tc main_arg5) = (m ((c : Thread nD τ).loc main_arg5)) :=
  (W4_of_ne m ρ c main_arg5 (by decide)).trans (W3_arg5 m ρ c)
theorem W4_arg6 : W4 m ρ c (Proc.devRef .tc main_arg6) = (m ((c : Thread nD τ).loc main_arg6)) :=
  (W4_of_ne m ρ c main_arg6 (by decide)).trans (W3_arg6 m ρ c)
theorem W4_arg7 : W4 m ρ c (Proc.devRef .tc main_arg7) = (m ((c : Thread nD τ).loc main_arg7)) :=
  (W4_of_ne m ρ c main_arg7 (by decide)).trans (W3_arg7 m ρ c)
theorem W4_arg8 : W4 m ρ c (Proc.devRef .tc main_arg8) = (m ((c : Thread nD τ).loc main_arg8)) :=
  (W4_of_ne m ρ c main_arg8 (by decide)).trans (W3_arg8 m ρ c)

/-! ## After the third stretch: the second layer's biases reshaped -/

theorem W5_v17 : W5 m ρ c (Proc.devRef .tc main_v17) = (reluSum (R := 100000) (C := 32) (keptRows (R := 100000) (K := 256) (C := 32) (m ((c : Thread nD τ).loc main_arg0)) (m ((c : Thread nD τ).loc main_arg1)) (shapeCast S1x32 (m ((c : Thread nD τ).loc main_arg2)) shapeCasts_S32_S1x32) (m ((c : Thread nD τ).loc main_arg3)) (shapeCast S1x32 (m ((c : Thread nD τ).loc main_arg4)) shapeCasts_S32_S1x32)) (agg32 (srcIdx (m ((c : Thread nD τ).loc main_arg9))) (dstIdx (m ((c : Thread nD τ).loc main_arg9))) (sentRows (R := 100000) (K := 256) (C := 32) (m ((c : Thread nD τ).loc main_arg0)) (m ((c : Thread nD τ).loc main_arg1)) (shapeCast S1x32 (m ((c : Thread nD τ).loc main_arg2)) shapeCasts_S32_S1x32)))) := by
  read_host
  exact W4_v17 m ρ c
theorem W5_v18 : W5 m ρ c (Proc.devRef .tc main_v18) = (shapeCast S1x16 (m ((c : Thread nD τ).loc main_arg6)) shapeCasts_S16_S1x16) := by
  read_host
  rw [W4_arg6]
  rfl
theorem W5_v19 : W5 m ρ c (Proc.devRef .tc main_v19) = (shapeCast S1x16 (m ((c : Thread nD τ).loc main_arg8)) shapeCasts_S16_S1x16) := by
  read_host
  rw [W4_arg8]
  rfl
theorem W5_v1 : W5 m ρ c (Proc.devRef .tc main_v1) = srcIdx (m ((c : Thread nD τ).loc main_arg9)) := by
  read_host
  exact W4_v1 m ρ c
theorem W5_v3 : W5 m ρ c (Proc.devRef .tc main_v3) = dstIdx (m ((c : Thread nD τ).loc main_arg9)) := by
  read_host
  exact W4_v3 m ρ c
theorem W5_arg5 : W5 m ρ c (Proc.devRef .tc main_arg5) = (m ((c : Thread nD τ).loc main_arg5)) := by
  read_host
  exact W4_arg5 m ρ c
theorem W5_arg7 : W5 m ρ c (Proc.devRef .tc main_arg7) = (m ((c : Thread nD τ).loc main_arg7)) := by
  read_host
  exact W4_arg7 m ρ c

/-! ## After the second linear region -/

theorem W6_v20_0 : W6 m ρ c (Proc.devRef .tc main_v20_0) = (sentRows (R := 100000) (K := 32) (C := 16) (reluSum (R := 100000) (C := 32) (keptRows (R := 100000) (K := 256) (C := 32) (m ((c : Thread nD τ).loc main_arg0)) (m ((c : Thread nD τ).loc main_arg1)) (shapeCast S1x32 (m ((c : Thread nD τ).loc main_arg2)) shapeCasts_S32_S1x32) (m ((c : Thread nD τ).loc main_arg3)) (shapeCast S1x32 (m ((c : Thread nD τ).loc main_arg4)) shapeCasts_S32_S1x32)) (agg32 (srcIdx (m ((c : Thread nD τ).loc main_arg9))) (dstIdx (m ((c : Thread nD τ).loc main_arg9))) (sentRows (R := 100000) (K := 256) (C := 32) (m ((c : Thread nD τ).loc main_arg0)) (m ((c : Thread nD τ).loc main_arg1)) (shapeCast S1x32 (m ((c : Thread nD τ).loc main_arg2)) shapeCasts_S32_S1x32)))) (m ((c : Thread nD τ).loc main_arg5)) (shapeCast S1x16 (m ((c : Thread nD τ).loc main_arg6)) shapeCasts_S16_S1x16)) := by
  refine (W6_arr m ρ c 5).trans ((Linear2.sent_array (V5 m ρ) c).trans ?_)
  show sentRows (R := 100000) (K := 32) (C := 16) (W5 m ρ c (Proc.devRef .tc main_v17)) (W5 m ρ c (Proc.devRef .tc main_arg5)) (W5 m ρ c (Proc.devRef .tc main_v18)) = _
  rw [W5_v17, W5_arg5, W5_v18]
theorem W6_v20_1 : W6 m ρ c (Proc.devRef .tc main_v20_1) = (keptRows (R := 100000) (K := 32) (C := 16) (reluSum (R := 100000) (C := 32) (keptRows (R := 100000) (K := 256) (C := 32) (m ((c : Thread nD τ).loc main_arg0)) (m ((c : Thread nD τ).loc main_arg1)) (shapeCast S1x32 (m ((c : Thread nD τ).loc main_arg2)) shapeCasts_S32_S1x32) (m ((c : Thread nD τ).loc main_arg3)) (shapeCast S1x32 (m ((c : Thread nD τ).loc main_arg4)) shapeCasts_S32_S1x32)) (agg32 (srcIdx (m ((c : Thread nD τ).loc main_arg9))) (dstIdx (m ((c : Thread nD τ).loc main_arg9))) (sentRows (R := 100000) (K := 256) (C := 32) (m ((c : Thread nD τ).loc main_arg0)) (m ((c : Thread nD τ).loc main_arg1)) (shapeCast S1x32 (m ((c : Thread nD τ).loc main_arg2)) shapeCasts_S32_S1x32)))) (m ((c : Thread nD τ).loc main_arg5)) (shapeCast S1x16 (m ((c : Thread nD τ).loc main_arg6)) shapeCasts_S16_S1x16) (m ((c : Thread nD τ).loc main_arg7)) (shapeCast S1x16 (m ((c : Thread nD τ).loc main_arg8)) shapeCasts_S16_S1x16)) := by
  refine (W6_arr m ρ c 6).trans ((Linear2.kept_array (V5 m ρ) c).trans ?_)
  show keptRows (R := 100000) (K := 32) (C := 16) (W5 m ρ c (Proc.devRef .tc main_v17)) (W5 m ρ c (Proc.devRef .tc main_arg5)) (W5 m ρ c (Proc.devRef .tc main_v18)) (W5 m ρ c (Proc.devRef .tc main_arg7)) (W5 m ρ c (Proc.devRef .tc main_v19)) = _
  rw [W5_v17, W5_arg5, W5_v18, W5_arg7, W5_v19]
theorem W6_v1 : W6 m ρ c (Proc.devRef .tc main_v1) = srcIdx (m ((c : Thread nD τ).loc main_arg9)) :=
  (W6_of_ne m ρ c main_v1 (by decide)).trans (W5_v1 m ρ c)
theorem W6_v3 : W6 m ρ c (Proc.devRef .tc main_v3) = dstIdx (m ((c : Thread nD τ).loc main_arg9)) :=
  (W6_of_ne m ρ c main_v3 (by decide)).trans (W5_v3 m ρ c)

/-! ## After the last stretch: the second aggregation -/

theorem W7_v20_1 : W7 m ρ c (Proc.devRef .tc main_v20_1) = (keptRows (R := 100000) (K := 32) (C := 16) (reluSum (R := 100000) (C := 32) (keptRows (R := 100000) (K := 256) (C := 32) (m ((c : Thread nD τ).loc main_arg0)) (m ((c : Thread nD τ).loc main_arg1)) (shapeCast S1x32 (m ((c : Thread nD τ).loc main_arg2)) shapeCasts_S32_S1x32) (m ((c : Thread nD τ).loc main_arg3)) (shapeCast S1x32 (m ((c : Thread nD τ).loc main_arg4)) shapeCasts_S32_S1x32)) (agg32 (srcIdx (m ((c : Thread nD τ).loc main_arg9))) (dstIdx (m ((c : Thread nD τ).loc main_arg9))) (sentRows (R := 100000) (K := 256) (C := 32) (m ((c : Thread nD τ).loc main_arg0)) (m ((c : Thread nD τ).loc main_arg1)) (shapeCast S1x32 (m ((c : Thread nD τ).loc main_arg2)) shapeCasts_S32_S1x32)))) (m ((c : Thread nD τ).loc main_arg5)) (shapeCast S1x16 (m ((c : Thread nD τ).loc main_arg6)) shapeCasts_S16_S1x16) (m ((c : Thread nD τ).loc main_arg7)) (shapeCast S1x16 (m ((c : Thread nD τ).loc main_arg8)) shapeCasts_S16_S1x16)) := by
  read_host
  exact W6_v20_1 m ρ c
/-- The last stretch read at the second aggregation's buffer, from any contents: the aggregation of what the message rows'
    buffer holds, along the edge rows the first stretch split. -/
theorem stretch3_v30 (W : Valuation τ sig (Elt Ideal)) :
    StableHlo.after hostOps3 W (Proc.devRef .tc main_v30)
      = agg16 (W (Proc.devRef .tc main_v1)) (W (Proc.devRef .tc main_v3)) (W (Proc.devRef .tc main_v20_0)) := by
  dsimp only [hostOps3]
  after_results
  unfold agg16
  with_reducible rfl
theorem W7_v30 : W7 m ρ c (Proc.devRef .tc main_v30) = (agg16 (srcIdx (m ((c : Thread nD τ).loc main_arg9))) (dstIdx (m ((c : Thread nD τ).loc main_arg9))) (sentRows (R := 100000) (K := 32) (C := 16) (reluSum (R := 100000) (C := 32) (keptRows (R := 100000) (K := 256) (C := 32) (m ((c : Thread nD τ).loc main_arg0)) (m ((c : Thread nD τ).loc main_arg1)) (shapeCast S1x32 (m ((c : Thread nD τ).loc main_arg2)) shapeCasts_S32_S1x32) (m ((c : Thread nD τ).loc main_arg3)) (shapeCast S1x32 (m ((c : Thread nD τ).loc main_arg4)) shapeCasts_S32_S1x32)) (agg32 (srcIdx (m ((c : Thread nD τ).loc main_arg9))) (dstIdx (m ((c : Thread nD τ).loc main_arg9))) (sentRows (R := 100000) (K := 256) (C := 32) (m ((c : Thread nD τ).loc main_arg0)) (m ((c : Thread nD τ).loc main_arg1)) (shapeCast S1x32 (m ((c : Thread nD τ).loc main_arg2)) shapeCasts_S32_S1x32)))) (m ((c : Thread nD τ).loc main_arg5)) (shapeCast S1x16 (m ((c : Thread nD τ).loc main_arg6)) shapeCasts_S16_S1x16))) := by
  refine (stretch3_v30 (W6 m ρ c)).trans ?_
  rw [W6_v1, W6_v3, W6_v20_0]

/-! ## After the last region: the result -/

theorem W8_v31 : W8 m ρ c (Proc.devRef .tc main_v31) = (logSoftmax (R := 100000) (C := 16) (plus (keptRows (R := 100000) (K := 32) (C := 16) (reluSum (R := 100000) (C := 32) (keptRows (R := 100000) (K := 256) (C := 32) (m ((c : Thread nD τ).loc main_arg0)) (m ((c : Thread nD τ).loc main_arg1)) (shapeCast S1x32 (m ((c : Thread nD τ).loc main_arg2)) shapeCasts_S32_S1x32) (m ((c : Thread nD τ).loc main_arg3)) (shapeCast S1x32 (m ((c : Thread nD τ).loc main_arg4)) shapeCasts_S32_S1x32)) (agg32 (srcIdx (m ((c : Thread nD τ).loc main_arg9))) (dstIdx (m ((c : Thread nD τ).loc main_arg9))) (sentRows (R := 100000) (K := 256) (C := 32) (m ((c : Thread nD τ).loc main_arg0)) (m ((c : Thread nD τ).loc main_arg1)) (shapeCast S1x32 (m ((c : Thread nD τ).loc main_arg2)) shapeCasts_S32_S1x32)))) (m ((c : Thread nD τ).loc main_arg5)) (shapeCast S1x16 (m ((c : Thread nD τ).loc main_arg6)) shapeCasts_S16_S1x16) (m ((c : Thread nD τ).loc main_arg7)) (shapeCast S1x16 (m ((c : Thread nD τ).loc main_arg8)) shapeCasts_S16_S1x16)) (agg16 (srcIdx (m ((c : Thread nD τ).loc main_arg9))) (dstIdx (m ((c : Thread nD τ).loc main_arg9))) (sentRows (R := 100000) (K := 32) (C := 16) (reluSum (R := 100000) (C := 32) (keptRows (R := 100000) (K := 256) (C := 32) (m ((c : Thread nD τ).loc main_arg0)) (m ((c : Thread nD τ).loc main_arg1)) (shapeCast S1x32 (m ((c : Thread nD τ).loc main_arg2)) shapeCasts_S32_S1x32) (m ((c : Thread nD τ).loc main_arg3)) (shapeCast S1x32 (m ((c : Thread nD τ).loc main_arg4)) shapeCasts_S32_S1x32)) (agg32 (srcIdx (m ((c : Thread nD τ).loc main_arg9))) (dstIdx (m ((c : Thread nD τ).loc main_arg9))) (sentRows (R := 100000) (K := 256) (C := 32) (m ((c : Thread nD τ).loc main_arg0)) (m ((c : Thread nD τ).loc main_arg1)) (shapeCast S1x32 (m ((c : Thread nD τ).loc main_arg2)) shapeCasts_S32_S1x32)))) (m ((c : Thread nD τ).loc main_arg5)) (shapeCast S1x16 (m ((c : Thread nD τ).loc main_arg6)) shapeCasts_S16_S1x16))))) := by
  refine (W8_arr m ρ c 2).trans ((LogSoftmax.out_array (V7 m ρ) c).trans ?_)
  show logSoftmax (R := 100000) (C := 16) (plus (W7 m ρ c (Proc.devRef .tc main_v20_1)) (W7 m ρ c (Proc.devRef .tc main_v30))) = _
  rw [W7_v20_1, W7_v30]

/-- A bias vector reshaped to one row reads, at an entry, the vector's entry of that column. -/
theorem row32 (b : (⟨S32, .f32⟩ : BufTy).Contents (Elt Ideal)) : shapeCast S1x32 b shapeCasts_S32_S1x32 = Cert.Dense.row (C := 32) b := by
  funext i
  obtain ⟨u, q, rfl⟩ : ∃ (u : Fin 1) (q : Fin 32), i = ix2 u q := ⟨i 0, i 1, eq_ix2 i⟩
  exact shapeCast_a_1a_apply b shapeCasts_S32_S1x32 u q
theorem row16 (b : (⟨S16, .f32⟩ : BufTy).Contents (Elt Ideal)) : shapeCast S1x16 b shapeCasts_S16_S1x16 = Cert.Dense.row (C := 16) b := by
  funext i
  obtain ⟨u, q, rfl⟩ : ∃ (u : Fin 1) (q : Fin 16), i = ix2 u q := ⟨i 0, i 1, eq_ix2 i⟩
  exact shapeCast_a_1a_apply b shapeCasts_S16_S1x16 u q

/-- THE KERNEL'S RESULT: the network of the launch contents of its arguments, with the two aggregations as its host
    stretches compute them. -/
theorem result : W8 m ρ c (Proc.devRef .tc main_v31)
    = network (agg32 (srcIdx (m ((c : Thread nD τ).loc main_arg9))) (dstIdx (m ((c : Thread nD τ).loc main_arg9)))) (agg16 (srcIdx (m ((c : Thread nD τ).loc main_arg9))) (dstIdx (m ((c : Thread nD τ).loc main_arg9))))
        (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [W8_v31, row32, row32, row16, row16]
  rfl

end Cert.KernelIdeal.Net

end
-- ==== Proof.LibTypedRef.lean ====
/-
  Typed references of a module-local function's operations. An operation of an outlined function reads and writes its
  buffers through typed references: a result is transported to its buffer's type when written and back to the value's
  type when the next operation reads it. The two transports cancel, so a line of such operations composes to the
  plain composition of their functions.
-/
import Idealize.ShloMosaic.Lib.StableHlo

namespace Idealize.ShloMosaic.StableHlo.TRef

variable {sig : RefSig} {Val : EltTy → Type} {T : BufTy}

/-- Written to the buffer and read back: the value. -/
theorem ofBuf_toBuf (x : TRef sig T) (v : T.Contents Val) : x.ofBuf (x.toBuf v) = v := by
  obtain ⟨r, ty_eq, h1, h2⟩ := x
  subst ty_eq
  rfl

/-- Read from the buffer and written back: the contents. -/
theorem toBuf_ofBuf (x : TRef sig T) (v : x.ref.ty.Contents Val) : x.toBuf (x.ofBuf v) = v := by
  obtain ⟨r, ty_eq, h1, h2⟩ := x
  subst ty_eq
  rfl

end Idealize.ShloMosaic.StableHlo.TRef
-- ==== Proof.RefValue.lean ====
/-
  The idealized reference's result as the same function of its arguments.

  The reference is one line of host operations. Stage by stage: a product with a transposed weight, read at an entry, is
  the sum over the contracted axis of the left operand along the entry's row times the weight read output-major; a bias
  broadcast first to one row and then down the rows reads the vector's entry of the column; the two aggregations are the
  gathers and scatters as they stand; the rectifier is the maximum with the zero word; and the log-softmax subtracts from
  every entry its row's maximum and then the logarithm of the row sum of the exponentials. The host takes the row maximum
  as a fold from the word of -inf and then once more the maximum with that word, which changes nothing; its row sum starts
  from the zero word, which is the number zero.
-/
import proofs.«181623_j44555990728725_1_alg».proof.Proof.RefRead
import proofs.«181623_j44555990728725_1_alg».proof.Proof.Network
import Idealize.ShloMosaic.PureOps.Reduce
import Idealize.ShloMosaic.PureOps.Ideal.Laws

set_option maxRecDepth 16384

noncomputable section

namespace Cert.ReferenceIdeal.Net

open Idealize.ShloMosaic Idealize.ShloMosaic.ValueIdx
open Cert.ReferenceIdeal Cert.ReferenceIdeal.Gen Cert.ReferenceIdeal.ReadP Cert.GraphNet

/-! ## The host operations of the aggregations, as functions -/

def srcIdx (e : (⟨S2x1600000, .i32⟩ : BufTy).Contents (Elt Ideal)) : (⟨S1600000, .i32⟩ : BufTy).Contents (Elt Ideal) :=
  shapeCast S1600000 (extractStridedSlice S1x1600000 ![0, 0] e slices_S2x1600000_S1x1600000_0_0) shapeCasts_S1x1600000_S1600000
def dstIdx (e : (⟨S2x1600000, .i32⟩ : BufTy).Contents (Elt Ideal)) : (⟨S1600000, .i32⟩ : BufTy).Contents (Elt Ideal) :=
  shapeCast S1600000 (extractStridedSlice S1x1600000 ![1, 0] e slices_S2x1600000_S1x1600000_1_0) shapeCasts_S1x1600000_S1600000

/-- Every edge's source row gathered and accumulated into the row of the edge's destination, from zero. -/
def agg32 (src dst : (⟨S1600000, .i32⟩ : BufTy).Contents (Elt Ideal)) (H : (⟨S100000x32, .f32⟩ : BufTy).Contents (Elt Ideal)) :
    (⟨S100000x32, .f32⟩ : BufTy).Contents (Elt Ideal) :=
  Host.scatterAdd (F := Ideal) scatter_S100000x32_S1600000x1_S1600000x32_1_0_0_1
    (broadcastInDim S100000x32 ![] bcast_S_S100000x32 (constant (F := Ideal) S_ .f32 0x00000000#32))
    (broadcastInDim S1600000x1 ![0] bcast_S1600000_S1600000x1_0 dst)
    (Host.gather gather_S100000x32_S1600000x1_S1600000x32_1_0_n_n_0_1_132 H
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))
def agg16 (src dst : (⟨S1600000, .i32⟩ : BufTy).Contents (Elt Ideal)) (H : (⟨S100000x16, .f32⟩ : BufTy).Contents (Elt Ideal)) :
    (⟨S100000x16, .f32⟩ : BufTy).Contents (Elt Ideal) :=
  Host.scatterAdd (F := Ideal) scatter_S100000x16_S1600000x1_S1600000x16_1_0_0_1
    (broadcastInDim S100000x16 ![] bcast_S_S100000x16 (constant (F := Ideal) S_ .f32 0x00000000#32))
    (broadcastInDim S1600000x1 ![0] bcast_S1600000_S1600000x1_0 dst)
    (Host.gather gather_S100000x16_S1600000x1_S1600000x16_1_0_n_n_0_1_116 H
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

variable (x0 : (⟨S100000x256, .f32⟩ : BufTy).Contents (Elt Ideal)) (x1 : (⟨S32x256, .f32⟩ : BufTy).Contents (Elt Ideal)) (x2 : (⟨S32, .f32⟩ : BufTy).Contents (Elt Ideal)) (x3 : (⟨S32x32, .f32⟩ : BufTy).Contents (Elt Ideal)) (x4 : (⟨S32, .f32⟩ : BufTy).Contents (Elt Ideal)) (x5 : (⟨S16x32, .f32⟩ : BufTy).Contents (Elt Ideal)) (x6 : (⟨S16, .f32⟩ : BufTy).Contents (Elt Ideal)) (x7 : (⟨S16x16, .f32⟩ : BufTy).Contents (Elt Ideal)) (x8 : (⟨S16, .f32⟩ : BufTy).Contents (Elt Ideal)) (x9 : (⟨S2x1600000, .i32⟩ : BufTy).Contents (Elt Ideal))

/-! ## The first layer -/

/-- The first product plus its bias: the first layer's message rows. -/
theorem sent1 : val_main_v8 (F := Ideal) x0 x1 x2 = sentRows (R := 100000) (K := 256) (C := 32) x0 x1 (Cert.Dense.row x2) := by
  funext i
  rw [val_main_v8_apply, val_main_v5_apply, val_main_v7_apply, val_main_v6_apply, Ideal.addf_def]
  unfold sentRows Cert.Dense.lin Cert.Dense.mm Cert.Dense.row
  refine congrArg₂ (· + ·) (Finset.sum_congr rfl fun k _ => congrArg₂ (· * ·)
      (congrArg x0 (idx2_ext (lidx_main_v5 i k) (ix2 (i 0) k) rfl rfl))
      ((val_main_v4_apply x1 (ridx_main_v5 i k)).trans (congrArg x1 (idx2_ext _ (ix2 (i 1) k) rfl rfl))))
    (congrArg x2 (funext fun a => match a with | ⟨0, _⟩ => rfl))

/-- The second product plus its bias: the first layer's own features. -/
theorem kept1 : val_main_v13 (F := Ideal) x0 x1 x2 x3 x4 = keptRows (R := 100000) (K := 256) (C := 32) x0 x1 (Cert.Dense.row x2) x3 (Cert.Dense.row x4) := by
  funext i
  rw [val_main_v13_apply, val_main_v10_apply, val_main_v12_apply, val_main_v11_apply, Ideal.addf_def, sent1]
  unfold keptRows Cert.Dense.lin Cert.Dense.mm Cert.Dense.row
  refine congrArg₂ (· + ·) (Finset.sum_congr rfl fun k _ => congrArg₂ (· * ·)
      (congrArg (sentRows (R := 100000) (K := 256) (C := 32) x0 x1 (Cert.Dense.row x2)) (idx2_ext (lidx_main_v10 i k) (ix2 (i 0) k) rfl rfl))
      ((val_main_v9_apply x3 (ridx_main_v10 i k)).trans (congrArg x3 (idx2_ext _ (ix2 (i 1) k) rfl rfl))))
    (congrArg x4 (funext fun a => match a with | ⟨0, _⟩ => rfl))

/-- The first aggregation is the gather and the scatter as they stand, of the message rows. -/
theorem agg1 : val_main_v23 (F := Ideal) x0 x1 x2 x9 = agg32 (srcIdx x9) (dstIdx x9) (val_main_v8 (F := Ideal) x0 x1 x2) := rfl

/-- The first layer ends in the rectified sum. -/
theorem relu1 : val_main_v25 (F := Ideal) x0 x1 x2 x3 x4 x9 = reluSum (R := 100000) (C := 32) (val_main_v13 (F := Ideal) x0 x1 x2 x3 x4) (val_main_v23 (F := Ideal) x0 x1 x2 x9) := by
  funext i
  rw [val_main_v25_apply, val_main_v24_apply, val_main_call0_v0_apply, val_main_call0_cst_apply]
  rfl

/-! ## The second layer -/

/-- The second layer's message rows, from the rectified sum. -/
theorem sent2 : val_main_v30 (F := Ideal) x0 x1 x2 x3 x4 x5 x6 x9 = sentRows (R := 100000) (K := 32) (C := 16) (val_main_v25 (F := Ideal) x0 x1 x2 x3 x4 x9) x5 (Cert.Dense.row x6) := by
  funext i
  rw [val_main_v30_apply, val_main_v27_apply, val_main_v29_apply, val_main_v28_apply, Ideal.addf_def]
  unfold sentRows Cert.Dense.lin Cert.Dense.mm Cert.Dense.row
  refine congrArg₂ (· + ·) (Finset.sum_congr rfl fun k _ => congrArg₂ (· * ·)
      (congrArg (val_main_v25 (F := Ideal) x0 x1 x2 x3 x4 x9) (idx2_ext (lidx_main_v27 i k) (ix2 (i 0) k) rfl rfl))
      ((val_main_v26_apply x5 (ridx_main_v27 i k)).trans (congrArg x5 (idx2_ext _ (ix2 (i 1) k) rfl rfl))))
    (congrArg x6 (funext fun a => match a with | ⟨0, _⟩ => rfl))

/-- The second layer's own features. -/
theorem kept2 : val_main_v35 (F := Ideal) x0 x1 x2 x3 x4 x5 x6 x7 x8 x9 = keptRows (R := 100000) (K := 32) (C := 16) (val_main_v25 (F := Ideal) x0 x1 x2 x3 x4 x9) x5 (Cert.Dense.row x6) x7 (Cert.Dense.row x8) := by
  funext i
  rw [val_main_v35_apply, val_main_v32_apply, val_main_v34_apply, val_main_v33_apply, Ideal.addf_def, sent2]
  unfold keptRows Cert.Dense.lin Cert.Dense.mm Cert.Dense.row
  refine congrArg₂ (· + ·) (Finset.sum_congr rfl fun k _ => congrArg₂ (· * ·)
      (congrArg (sentRows (R := 100000) (K := 32) (C := 16) (val_main_v25 (F := Ideal) x0 x1 x2 x3 x4 x9) x5 (Cert.Dense.row x6)) (idx2_ext (lidx_main_v32 i k) (ix2 (i 0) k) rfl rfl))
      ((val_main_v31_apply x7 (ridx_main_v32 i k)).trans (congrArg x7 (idx2_ext _ (ix2 (i 1) k) rfl rfl))))
    (congrArg x8 (funext fun a => match a with | ⟨0, _⟩ => rfl))

theorem agg2 : val_main_v45 (F := Ideal) x0 x1 x2 x3 x4 x5 x6 x9 = agg16 (srcIdx x9) (dstIdx x9) (val_main_v30 (F := Ideal) x0 x1 x2 x3 x4 x5 x6 x9) := rfl

theorem sum2 : val_main_v46 (F := Ideal) x0 x1 x2 x3 x4 x5 x6 x7 x8 x9 = plus (R := 100000) (C := 16) (val_main_v35 (F := Ideal) x0 x1 x2 x3 x4 x5 x6 x7 x8 x9) (val_main_v45 (F := Ideal) x0 x1 x2 x3 x4 x5 x6 x9) := by
  funext i
  rw [val_main_v46_apply]
  rfl

/-! ## The log-softmax -/

/-- The host's row maximum: the fold of `max` from the word of -inf over the row's entries. -/
theorem rowmax_ref (r : Fin 100000) :
    val_main_call1_v0 (F := Ideal) x0 x1 x2 x3 x4 x5 x6 x7 x8 x9 (ix1 r) = rowMax (R := 100000) (C := 16) (val_main_v46 (F := Ideal) x0 x1 x2 x3 x4 x5 x6 x7 x8 x9) r := by
  unfold val_main_call1_v0
  generalize val_main_v46 (F := Ideal) x0 x1 x2 x3 x4 x5 x6 x7 x8 x9 = Z
  haveI : Std.Commutative (FloatOps.maximumf (F := Ideal) (φ := .f32)) := ⟨fun a b => max_comm a b⟩
  haveI : Std.Associative (FloatOps.maximumf (F := Ideal) (φ := .f32)) := ⟨fun a b c => max_assoc a b c⟩
  refine (Host.reduce_eq_fold_single (FloatOps.maximumf (F := Ideal) (φ := .f32)) Z (val_main_call1_cst (F := Ideal))
    reducesTo_S100000x16_S100000_d1 (by decide) h_S_ (ix1 r)).trans ?_
  unfold rowMax
  exact congrArg (fun f : Fin 16 → EReal => (Finset.univ : Finset (Fin 16)).fold max negInfW f)
    (funext fun k => congrArg Z (funext fun a => Fin.ext (match a with | ⟨0, _⟩ => rfl | ⟨1, _⟩ => rfl)))

-- the second layer's sum stays a name below: nothing about the log-softmax needs what is inside it
attribute [local irreducible] val_main_v46 in
/-- The reference's result is the shifted log-softmax of the second layer's sum. -/
theorem lsm : val_main_v47 (F := Ideal) x0 x1 x2 x3 x4 x5 x6 x7 x8 x9 = logSoftmax (R := 100000) (C := 16) (val_main_v46 (F := Ideal) x0 x1 x2 x3 x4 x5 x6 x7 x8 x9) := by
  funext i
  obtain ⟨r, j, rfl⟩ : ∃ (r : Fin 100000) (j : Fin 16), i = ix2 r j := ⟨i 0, i 1, eq_ix2 i⟩
  have hM : ∀ j' : Fin 16, val_main_call1_v4 (F := Ideal) x0 x1 x2 x3 x4 x5 x6 x7 x8 x9 (ix2 r j') = rowMax (R := 100000) (C := 16) (val_main_v46 (F := Ideal) x0 x1 x2 x3 x4 x5 x6 x7 x8 x9) r := fun j' => by
    rw [val_main_call1_v4_apply, val_main_call1_v3_apply, val_main_call1_v2_apply, val_main_call1_v1_apply, val_main_call1_cst_0_apply]
    have e : idx_main_call1_v3 (idx_main_call1_v4 (ix2 r j')) = ix1 r := funext fun a => match a with | ⟨0, _⟩ => rfl
    rw [e, rowmax_ref, Ideal.maximumf_def, Ideal.ofBits_def]
    unfold rowMax
    exact max_fold_self Finset.univ negInfW _
  have hS : ∀ k : Fin 16, val_main_call1_v5 (F := Ideal) x0 x1 x2 x3 x4 x5 x6 x7 x8 x9 (ix2 r k) = shifted (R := 100000) (C := 16) (val_main_v46 (F := Ideal) x0 x1 x2 x3 x4 x5 x6 x7 x8 x9) r k := fun k => by
    rw [val_main_call1_v5_apply, hM k, Ideal.subf_def]
    unfold shifted
    rfl
  rw [val_main_v47_apply, hS j, val_main_call1_v10_apply, val_main_call1_v9_apply, val_main_call1_v8_apply, val_main_call1_v7_apply,
    val_main_call1_cst_1_apply, Ideal.subf_def, Ideal.hostUnary_log_def]
  unfold logSoftmax
  refine congrArg (shifted (R := 100000) (C := 16) (val_main_v46 (F := Ideal) x0 x1 x2 x3 x4 x5 x6 x7 x8 x9) r j - ·) (congrArg Ideal.log ?_)
  rw [Ideal.ofBits_def, Ideal.ofBits_zero_f32, zero_add]
  refine Finset.sum_congr rfl fun k _ => ?_
  rw [val_main_call1_v6_apply, Ideal.hostUnary_exp_def]
  exact congrArg Ideal.exp ((congrArg (val_main_call1_v5 (F := Ideal) x0 x1 x2 x3 x4 x5 x6 x7 x8 x9) (idx2_ext (idx_main_call1_v7 (idx_main_call1_v8 (idx_main_call1_v10 (ix2 r j))) k) (ix2 r k) rfl rfl)).trans (hS k))

/-! ## The whole -/

/-- THE REFERENCE'S RESULT: the network of its arguments, with the two aggregations as its host line computes them. -/
theorem result : val_main_v47 (F := Ideal) x0 x1 x2 x3 x4 x5 x6 x7 x8 x9
    = network (agg32 (srcIdx x9) (dstIdx x9)) (agg16 (srcIdx x9) (dstIdx x9)) x0 x1 x2 x3 x4 x5 x6 x7 x8 := by
  rw [lsm, sum2, kept2, agg2, sent2, relu1, kept1, agg1, sent1]
  rfl

end Cert.ReferenceIdeal.Net

end
-- ==== Proof.lean ====
/-
  The certificate of a two-layer graph convolution network: a Pallas kernel program against its jnp reference.

  Both programs compute, for node features X, weights stored output-major and bias vectors,

      h₁ = X · Wa₁ᵀ + ba₁,   f₁ = h₁ · Wb₁ᵀ + bb₁,   r = max (f₁ + agg h₁) 0,
      h₂ = r · Wa₂ᵀ + ba₂,   f₂ = h₂ · Wb₂ᵀ + bb₂,   out = log-softmax over each row of f₂ + agg h₂,

  where agg sums, for every node, the rows of the nodes with an edge into it (a gather of rows and an accumulating scatter,
  the same host operations in both programs, whatever the edge array holds). The kernel program computes the two linear
  steps and the two combining steps in four pipelined regions over blocks of 4000 rows, with the weights transposed
  inside the body and the operands passed through bf16; the reference is one line of host operations. On the extended
  reals a change of float format is the identity, a product into a zero accumulator and the host's product are the same
  sum over the contracted axis, and a row's entry of any of these layers depends on the input only along that row, so
  the blocks of the kernel's arrays are the blocks of the reference's. The kernel takes a row's maximum as the fold of max
  from the word of -inf; the host does the same and then takes the maximum with that word once more, which changes nothing
  since a fold of max from b is at least b. No step uses that the inputs are finite.

  The frames of the two kernel programs are the generated ones; the reference's frame is its run with the result dropped;
  the idealization rewrote no operation, so there is nothing to preserve.
-/
import proofs.«181623_j44555990728725_1_alg».proof.Defs
import proofs.«181623_j44555990728725_1_alg».proof.Proof.Gen.Kernel
import proofs.«181623_j44555990728725_1_alg».proof.Proof.Gen.Kernel.Frame
import proofs.«181623_j44555990728725_1_alg».proof.Proof.Gen.KernelIdeal
import proofs.«181623_j44555990728725_1_alg».proof.Proof.Gen.KernelIdeal.Frame
import proofs.«181623_j44555990728725_1_alg».proof.Proof.Gen.ReferenceIdeal
import proofs.«181623_j44555990728725_1_alg».proof.Proof.Gen.Pre_finite_inputs
import proofs.«181623_j44555990728725_1_alg».proof.Proof.KernelRun
import proofs.«181623_j44555990728725_1_alg».proof.Proof.KernelValue
import proofs.«181623_j44555990728725_1_alg».proof.Proof.RefRun
import proofs.«181623_j44555990728725_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem Cert.GraphNet

/-! ## The two programs' aggregations are one function -/

/-- The edge array's two rows, read by the same two operations in both programs. -/
theorem srcIdx_eq : Cert.KernelIdeal.Net.srcIdx = Cert.ReferenceIdeal.Net.srcIdx := rfl
theorem dstIdx_eq : Cert.KernelIdeal.Net.dstIdx = Cert.ReferenceIdeal.Net.dstIdx := rfl
/-- The gather of rows and the accumulating scatter, with the same dimension numbers in both programs. -/
theorem agg32_eq : Cert.KernelIdeal.Net.agg32 = Cert.ReferenceIdeal.Net.agg32 := rfl
theorem agg16_eq : Cert.KernelIdeal.Net.agg16 = Cert.ReferenceIdeal.Net.agg16 := rfl

/-! ## The claims -/

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end with the network of their arguments in the result's buffer, and the arguments agree. -/
theorem algebraic : Cert.algebraic_KernelIdeal_ReferenceIdeal := by
  intro m ρ m' ρ' _ hagree
  refine ⟨fun c => Cert.KernelIdeal.Gen.W8 m ρ c (Proc.devRef .tc Cert.KernelIdeal.main_v31), Cert.KernelIdeal.Boundary.run_named (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8, a9⟩ := hagree c
  show _ = Cert.KernelIdeal.Gen.W8 m ρ c (Proc.devRef .tc Cert.KernelIdeal.main_v31)
  rw [Cert.ReferenceIdeal.ReadP.val_main_v47_eq, Cert.ReferenceIdeal.Net.result, Cert.KernelIdeal.Net.result m ρ c, a0, a1, a2, a3, a4, a5, a6, a7, a8, a9,
    srcIdx_eq, dstIdx_eq, agg32_eq, agg16_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
